-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x96x96 : Shape := ⟨4, ![8, 512, 96, 96]⟩
abbrev S1536x512 : Shape := ⟨2, ![1536, 512]⟩
abbrev S_ : Shape := ⟨0, ![]⟩

class Facts : Prop where
  bcast_S_S8x512x96x96 : S_.BroadcastsInDim S8x512x96x96 (![] : Fin 0 → Fin S8x512x96x96.rank)
  reducesTo_S8x512x96x96_S_d0_1_2_3 : S8x512x96x96.ReducesTo [0, 1, 2, 3] S_
  h_S_ : 0 < S_.numel
  bcast_S_S1536x512 : S_.BroadcastsInDim S1536x512 (![] : Fin 0 → Fin S1536x512.rank)
  reducesTo_S1536x512_S_d0_1 : S1536x512.ReducesTo [0, 1] S_

variable [Facts]

def fn {F : FTy → Type} [FloatOps F] (main_arg0 : FVec F S8x512x96x96 .f32) (main_arg1 : FVec F S8x512x96x96 .f32) (main_arg2 : FVec F S1536x512 .f32) : IVec S_ 1 :=
  let main_v0 : FVec F S8x512x96x96 .f32 := Host.absf main_arg0
  let main_cst : FVec F S_ .f32 := constant S_ .f32 0x7F800000#32
  let main_v1 : FVec F S8x512x96x96 .f32 := broadcastInDim S8x512x96x96 ![] bcast_S_S8x512x96x96 main_cst
  let main_v2 : IVec S8x512x96x96 1 := cmpf .olt main_v0 main_v1
  let main_c : IVec S_ 1 := constantI S_ 1 1#1
  let main_v3 : IVec S_ 1 := (fun x v => Host.reduce IntOp.andi x v reducesTo_S8x512x96x96_S_d0_1_2_3 h_S_) main_v2 main_c
  let main_v4 : FVec F S8x512x96x96 .f32 := Host.absf main_arg1
  let main_cst_0 : FVec F S_ .f32 := constant S_ .f32 0x7F800000#32
  let main_v5 : FVec F S8x512x96x96 .f32 := broadcastInDim S8x512x96x96 ![] bcast_S_S8x512x96x96 main_cst_0
  let main_v6 : IVec S8x512x96x96 1 := cmpf .olt main_v4 main_v5
  let main_c_1 : IVec S_ 1 := constantI S_ 1 1#1
  let main_v7 : IVec S_ 1 := (fun x v => Host.reduce IntOp.andi x v reducesTo_S8x512x96x96_S_d0_1_2_3 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  main_v13
-- ==== Kernel.lean ====
abbrev S8x512x96x96 : Shape := ⟨4, ![8, 512, 96, 96]⟩
abbrev S1536x512 : Shape := ⟨2, ![1536, 512]⟩
abbrev S512x1536 : Shape := ⟨2, ![512, 1536]⟩
abbrev S8x512x9216 : Shape := ⟨3, ![8, 512, 9216]⟩
abbrev S8x6144x1536 : Shape := ⟨3, ![8, 6144, 1536]⟩
abbrev S1x512x768 : Shape := ⟨3, ![1, 512, 768]⟩
abbrev S1x768x1536 : Shape := ⟨3, ![1, 768, 1536]⟩
abbrev S512x768 : Shape := ⟨2, ![512, 768]⟩
abbrev S768x512 : Shape := ⟨2, ![768, 512]⟩
abbrev S768x1536 : Shape := ⟨2, ![768, 1536]⟩
abbrev S8x3072x1536 : Shape := ⟨3, ![8, 3072, 1536]⟩
abbrev S8x2x512x96x96 : Shape := ⟨5, ![8, 2, 512, 96, 96]⟩
abbrev S8x1x512x96x96 : Shape := ⟨5, ![8, 1, 512, 96, 96]⟩
abbrev S4096x96x96 : Shape := ⟨3, ![4096, 96, 96]⟩
abbrev S64x96x96 : Shape := ⟨3, ![64, 96, 96]⟩
abbrev S64x96 : Shape := ⟨2, ![64, 96]⟩
abbrev S64x96x1 : Shape := ⟨3, ![64, 96, 1]⟩

abbrev nBuf : Space → Nat
  | .hbm => 19
  | .vmem => 18
  | .smem => 0
  | _ => 0

abbrev bufTy : (tb : Table) → Fin (tcTables nBuf tb) → BufTy
  | .hbm, ⟨0, _⟩ => ⟨S8x512x96x96, .f32⟩
  | .hbm, ⟨1, _⟩ => ⟨S8x512x96x96, .f32⟩
  | .hbm, ⟨2, _⟩ => ⟨S1536x512, .f32⟩
  | .hbm, ⟨3, _⟩ => ⟨S512x1536, .f32⟩
  | .hbm, ⟨4, _⟩ => ⟨S8x512x9216, .f32⟩
  | .hbm, ⟨5, _⟩ => ⟨S8x512x9216, .f32⟩
  | .hbm, ⟨6, _⟩ => ⟨S8x6144x1536, .bf16⟩
  | .hbm, ⟨7, _⟩ => ⟨S8x3072x1536, .bf16⟩
  | .hbm, ⟨8, _⟩ => ⟨S8x2x512x96x96, .bf16⟩
  | .hbm, ⟨9, _⟩ => ⟨S8x1x512x96x96, .bf16⟩
  | .hbm, ⟨10, _⟩ => ⟨S8x512x96x96, .bf16⟩
  | .hbm, ⟨11, _⟩ => ⟨S8x1x512x96x96, .bf16⟩
  | .hbm, ⟨12, _⟩ => ⟨S8x512x96x96, .bf16⟩
  | .hbm, ⟨13, _⟩ => ⟨S8x512x96x96, .bf16⟩
  | .hbm, ⟨14, _⟩ => ⟨S4096x96x96, .bf16⟩
  | .hbm, ⟨15, _⟩ => ⟨S4096x96x96, .bf16⟩
  | .hbm, ⟨16, _⟩ => ⟨S4096x96x96, .bf16⟩
  | .hbm, ⟨17, _⟩ => ⟨S4096x96x96, .f32⟩
  | .hbm, ⟨18, _⟩ => ⟨S8x512x96x96, .f32⟩
  | .local _ .vmem, ⟨0, _⟩ => ⟨S1x512x768, .f32⟩
  | .local _ .vmem, ⟨1, _⟩ => ⟨S1x512x768, .f32⟩
  | .local _ .vmem, ⟨2, _⟩ => ⟨S512x1536, .f32⟩
  | .local _ .vmem, ⟨3, _⟩ => ⟨S1x768x1536, .bf16⟩
  | .local _ .vmem, ⟨4, _⟩ => ⟨S1x768x1536, .bf16⟩
  | .local _ .vmem, ⟨5, _⟩ => ⟨S1x512x768, .f32⟩
  | .local _ .vmem, ⟨6, _⟩ => ⟨S1x512x768, .f32⟩
  | .local _ .vmem, ⟨7, _⟩ => ⟨S512x1536, .f32⟩
  | .local _ .vmem, ⟨8, _⟩ => ⟨S1x768x1536, .bf16⟩
  | .local _ .vmem, ⟨9, _⟩ => ⟨S1x768x1536, .bf16⟩
  | .local _ .vmem, ⟨10, _⟩ => ⟨S64x96x96, .bf16⟩
  | .local _ .vmem, ⟨11, _⟩ => ⟨S64x96x96, .bf16⟩
  | .local _ .vmem, ⟨12, _⟩ => ⟨S64x96x96, .bf16⟩
  | .local _ .vmem, ⟨13, _⟩ => ⟨S64x96x96, .bf16⟩
  | .local _ .vmem, ⟨14, _⟩ => ⟨S64x96x96, .bf16⟩
  | .local _ .vmem, ⟨15, _⟩ => ⟨S64x96x96, .bf16⟩
  | .local _ .vmem, ⟨16, _⟩ => ⟨S64x96x96, .f32⟩
  | .local _ .vmem, ⟨17, _⟩ => ⟨S64x96x96, .f32⟩
  | _, _ => ⟨S8x512x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x768x1536 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x96x96 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x96x96 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x96x96 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x96x96 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  transposes_S1536x512_S512x1536_1_0 : S1536x512.Transposes [1, 0] S512x1536
  shapeCasts_S8x512x96x96_S8x512x9216 : S8x512x96x96.ShapeCasts S8x512x9216
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  transposes_S512x768_p1_0_S768x512 : S512x768.Transposes [1, 0] S768x512
  inb_S1x768x1536_S1x768x1536_0_0_0 : ∀ a, (![0, 0, 0] : Fin 3 → Nat) a + S1x768x1536.size a ≤ S1x768x1536.size a
  h_S1x768x1536 : 0 < S1x768x1536.numel
  shapeCasts_S1x768x1536_S768x1536 : S1x768x1536.ShapeCasts S768x1536
  shapeCasts_S768x1536_S1x768x1536 : S768x1536.ShapeCasts S1x768x1536
  packedbf16_S1x768x1536_S1x768x1536_0_0_0 : (Rect.unit (s := S1x768x1536) ![0, 0, 0] S1x768x1536.size inb_S1x768x1536_S1x768x1536_0_0_0).PackedRows (EltTy.packing .bf16)
  shapeCasts_S8x6144x1536_S8x2x512x96x96 : S8x6144x1536.ShapeCasts S8x2x512x96x96
  slices_S8x2x512x96x96_S8x1x512x96x96_0_0_0_0_0 : S8x2x512x96x96.Slices ![0, 0, 0, 0, 0] S8x1x512x96x96
  shapeCasts_S8x1x512x96x96_S8x512x96x96 : S8x1x512x96x96.ShapeCasts S8x512x96x96
  slices_S8x2x512x96x96_S8x1x512x96x96_0_1_0_0_0 : S8x2x512x96x96.Slices ![0, 1, 0, 0, 0] S8x1x512x96x96
  shapeCasts_S8x3072x1536_S8x512x96x96 : S8x3072x1536.ShapeCasts S8x512x96x96
  shapeCasts_S8x512x96x96_S4096x96x96 : S8x512x96x96.ShapeCasts S4096x96x96
  inb_S64x96x96_S64x96x96_0_0_0 : ∀ a, (![0, 0, 0] : Fin 3 → Nat) a + S64x96x96.size a ≤ S64x96x96.size a
  h_S64x96x96 : 0 < S64x96x96.numel
  shapeCasts_S64x96x96_S64x96x96 : S64x96x96.ShapeCasts S64x96x96
  reduces_S64x96x96_S64x96 : S64x96x96.Reduces [2] S64x96
  shapeCasts_S64x96_S64x96x1 : S64x96.ShapeCasts S64x96x1
  broadcasts_S64x96x1_S64x96x96 : S64x96x1.Broadcasts S64x96x96
  shapeCasts_S4096x96x96_S8x512x96x96 : S4096x96x96.ShapeCasts S8x512x96x96
  dot_S768x512_S512x1536_S768x1536_1_0_0_1_n_n_wf : DotDims.WF S768x512 S512x1536 S768x1536 [1] [0] [0] [1] [] []
  dot_S64x96x96_S64x96x96_S64x96x96_2_2_1_1_0_0_wf : DotDims.WF S64x96x96 S64x96x96 S64x96x96 [2] [2] [1] [1] [0] [0]
  dot_S64x96x96_S64x96x96_S64x96x96_2_1_1_2_0_0_wf : DotDims.WF S64x96x96 S64x96x96 S64x96x96 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S8x512x9216.size a
  hwx0_0 : ∀ i : grid0.Coords, EltTy.bits .f32 = 32 ∨ (Rect.block (s := S8x512x9216) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x768x1536.size a ≤ S8x6144x1536.size a
  hwx0_2 : ∀ i : grid0.Coords, EltTy.bits .bf16 = 32 ∨ (Rect.block (s := S8x6144x1536) S1x768x1536.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x768.size a ≤ S8x512x9216.size a
  hwx1_0 : ∀ i : grid1.Coords, EltTy.bits .f32 = 32 ∨ (Rect.block (s := S8x512x9216) S1x512x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1536.size a ≤ S512x1536.size a
  hwx1_1 : ∀ i : grid1.Coords, EltTy.bits .f32 = 32 ∨ (Rect.block (s := S512x1536) S512x1536.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x768x1536.size a ≤ S8x3072x1536.size a
  hwx1_2 : ∀ i : grid1.Coords, EltTy.bits .bf16 = 32 ∨ (Rect.block (s := S8x3072x1536) S1x768x1536.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x96x96.size a ≤ S4096x96x96.size a
  hwx2_0 : ∀ i : grid2.Coords, EltTy.bits .bf16 = 32 ∨ (Rect.block (s := S4096x96x96) S64x96x96.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x96x96.size a ≤ S4096x96x96.size a
  hwx2_1 : ∀ i : grid2.Coords, EltTy.bits .bf16 = 32 ∨ (Rect.block (s := S4096x96x96) S64x96x96.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x96x96.size a ≤ S4096x96x96.size a
  hwx2_2 : ∀ i : grid2.Coords, EltTy.bits .bf16 = 32 ∨ (Rect.block (s := S4096x96x96) S64x96x96.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x96x96.size a ≤ S4096x96x96.size a
  hwx2_3 : ∀ i : grid2.Coords, EltTy.bits .f32 = 32 ∨ (Rect.block (s := S4096x96x96) S64x96x96.size (cc2_transform_3 i) (hinb2_3 i)).WholeWords (EltTy.packing .f32)

variable [Facts₀]

def dot_S768x512_S512x1536_S768x1536_1_0_0_1_n_n : DotDims S768x512 S512x1536 S768x1536 where
  lhsContracting := [1]
  rhsContracting := [0]
  lhsNonContracting := [0]
  rhsNonContracting := [1]
  lhsBatch := []
  rhsBatch := []
  wf := dot_S768x512_S512x1536_S768x1536_1_0_0_1_n_n_wf
def dot_S64x96x96_S64x96x96_S64x96x96_2_2_1_1_0_0 : DotDims S64x96x96 S64x96x96 S64x96x96 where
  lhsContracting := [2]
  rhsContracting := [2]
  lhsNonContracting := [1]
  rhsNonContracting := [1]
  lhsBatch := [0]
  rhsBatch := [0]
  wf := dot_S64x96x96_S64x96x96_S64x96x96_2_2_1_1_0_0_wf
def dot_S64x96x96_S64x96x96_S64x96x96_2_1_1_2_0_0 : DotDims S64x96x96 S64x96x96 S64x96x96 where
  lhsContracting := [2]
  rhsContracting := [1]
  lhsNonContracting := [1]
  rhsNonContracting := [2]
  lhsBatch := [0]
  rhsBatch := [0]
  wf := dot_S64x96x96_S64x96x96_S64x96x96_2_1_1_2_0_0_wf

abbrev win0_0 : Pipeline.Window sig grid0 :=
  Pipeline.Window.ofSpec (Memref.whole main_v1) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x768x1536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x512x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x768x1536.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v11) S64x96x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S64x96x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S64x96x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v14) S64x96x96.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x512x96x96 : Shape := ⟨4, ![8, 512, 96, 96]⟩
abbrev S1536x512 : Shape := ⟨2, ![1536, 512]⟩
abbrev S8x96x96x512 : Shape := ⟨4, ![8, 96, 96, 512]⟩
abbrev S8x96x96x1536 : Shape := ⟨4, ![8, 96, 96, 1536]⟩
abbrev S8x3x512x96x96 : Shape := ⟨5, ![8, 3, 512, 96, 96]⟩
abbrev S8x1x512x96x96 : Shape := ⟨5, ![8, 1, 512, 96, 96]⟩
abbrev S_ : Shape := ⟨0, ![]⟩
abbrev S8x512x96 : Shape := ⟨3, ![8, 512, 96]⟩
abbrev S8x512x96x1 : Shape := ⟨4, ![8, 512, 96, 1]⟩

abbrev nBuf : Space → Nat
  | .hbm => 40
  | .vmem => 0
  | .smem => 0
  | _ => 0

abbrev bufTy : (tb : Table) → Fin (tcTables nBuf tb) → BufTy
  | .hbm, ⟨0, _⟩ => ⟨S8x512x96x96, .f32⟩
  | .hbm, ⟨1, _⟩ => ⟨S8x512x96x96, .f32⟩
  | .hbm, ⟨2, _⟩ => ⟨S1536x512, .f32⟩
  | .hbm, ⟨3, _⟩ => ⟨S8x96x96x512, .f32⟩
  | .hbm, ⟨4, _⟩ => ⟨S8x96x96x1536, .f32⟩
  | .hbm, ⟨5, _⟩ => ⟨S8x3x512x96x96, .f32⟩
  | .hbm, ⟨6, _⟩ => ⟨S8x1x512x96x96, .f32⟩
  | .hbm, ⟨7, _⟩ => ⟨S8x512x96x96, .f32⟩
  | .hbm, ⟨8, _⟩ => ⟨S8x1x512x96x96, .f32⟩
  | .hbm, ⟨9, _⟩ => ⟨S8x512x96x96, .f32⟩
  | .hbm, ⟨10, _⟩ => ⟨S8x1x512x96x96, .f32⟩
  | .hbm, ⟨11, _⟩ => ⟨S8x512x96x96, .f32⟩
  | .hbm, ⟨12, _⟩ => ⟨S8x96x96x512, .f32⟩
  | .hbm, ⟨13, _⟩ => ⟨S8x96x96x1536, .f32⟩
  | .hbm, ⟨14, _⟩ => ⟨S8x3x512x96x96, .f32⟩
  | .hbm, ⟨15, _⟩ => ⟨S8x1x512x96x96, .f32⟩
  | .hbm, ⟨16, _⟩ => ⟨S8x512x96x96, .f32⟩
  | .hbm, ⟨17, _⟩ => ⟨S8x1x512x96x96, .f32⟩
  | .hbm, ⟨18, _⟩ => ⟨S8x512x96x96, .f32⟩
  | .hbm, ⟨19, _⟩ => ⟨S8x1x512x96x96, .f32⟩
  | .hbm, ⟨20, _⟩ => ⟨S8x512x96x96, .f32⟩
  | .hbm, ⟨21, _⟩ => ⟨S8x512x96x96, .f32⟩
  | .hbm, ⟨22, _⟩ => ⟨S_, .f32⟩
  | .hbm, ⟨23, _⟩ => ⟨S8x512x96x96, .f32⟩
  | .hbm, ⟨24, _⟩ => ⟨S8x512x96x96, .f32⟩
  | .hbm, ⟨25, _⟩ => ⟨S_, .f32⟩
  | .hbm, ⟨26, _⟩ => ⟨S8x512x96, .f32⟩
  | .hbm, ⟨27, _⟩ => ⟨S_, .f32⟩
  | .hbm, ⟨28, _⟩ => ⟨S8x512x96, .f32⟩
  | .hbm, ⟨29, _⟩ => ⟨S8x512x96, .f32⟩
  | .hbm, ⟨30, _⟩ => ⟨S8x512x96x1, .f32⟩
  | .hbm, ⟨31, _⟩ => ⟨S8x512x96x96, .f32⟩
  | .hbm, ⟨32, _⟩ => ⟨S8x512x96x96, .f32⟩
  | .hbm, ⟨33, _⟩ => ⟨S8x512x96x96, .f32⟩
  | .hbm, ⟨34, _⟩ => ⟨S_, .f32⟩
  | .hbm, ⟨35, _⟩ => ⟨S8x512x96, .f32⟩
  | .hbm, ⟨36, _⟩ => ⟨S8x512x96x1, .f32⟩
  | .hbm, ⟨37, _⟩ => ⟨S8x512x96x96, .f32⟩
  | .hbm, ⟨38, _⟩ => ⟨S8x512x96x96, .f32⟩
  | .hbm, ⟨39, _⟩ => ⟨S8x512x96x96, .f32⟩
  | _, _ => ⟨S8x512x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]

class Facts₀ : Prop where
  transposes_S8x512x96x96_S8x96x96x512_0_2_3_1 : S8x512x96x96.Transposes [0, 2, 3, 1] S8x96x96x512
  shapeCasts_S8x96x96x1536_S8x3x512x96x96 : S8x96x96x1536.ShapeCasts S8x3x512x96x96
  slices_S8x3x512x96x96_S8x1x512x96x96_0_0_0_0_0 : S8x3x512x96x96.Slices ![0, 0, 0, 0, 0] S8x1x512x96x96
  shapeCasts_S8x1x512x96x96_S8x512x96x96 : S8x1x512x96x96.ShapeCasts S8x512x96x96
  slices_S8x3x512x96x96_S8x1x512x96x96_0_1_0_0_0 : S8x3x512x96x96.Slices ![0, 1, 0, 0, 0] S8x1x512x96x96
  slices_S8x3x512x96x96_S8x1x512x96x96_0_2_0_0_0 : S8x3x512x96x96.Slices ![0, 2, 0, 0, 0] S8x1x512x96x96
  bcast_S_S8x512x96x96 : S_.BroadcastsInDim S8x512x96x96 (![] : Fin 0 → Fin S8x512x96x96.rank)
  reducesTo_S8x512x96x96_S8x512x96_d3 : S8x512x96x96.ReducesTo [3] S8x512x96
  h_S_ : 0 < S_.numel
  bcast_S_S8x512x96 : S_.BroadcastsInDim S8x512x96 (![] : Fin 0 → Fin S8x512x96.rank)
  bcast_S8x512x96_S8x512x96x1_0_1_2 : S8x512x96.BroadcastsInDim S8x512x96x1 (![0, 1, 2] : Fin 3 → Fin S8x512x96x1.rank)
  bcast_S8x512x96x1_S8x512x96x96_0_1_2_3 : S8x512x96x1.BroadcastsInDim S8x512x96x96 (![0, 1, 2, 3] : Fin 4 → Fin S8x512x96x96.rank)
  dot_S8x96x96x512_S1536x512_S8x96x96x1536_3_1_012_0_n_n_wf : DotDims.WF S8x96x96x512 S1536x512 S8x96x96x1536 [3] [1] [0, 1, 2] [0] [] []
  dot_S8x512x96x96_S8x512x96x96_S8x512x96x96_3_3_2_2_01_01_wf : DotDims.WF S8x512x96x96 S8x512x96x96 S8x512x96x96 [3] [3] [2] [2] [0, 1] [0, 1]
  dot_S8x512x96x96_S8x512x96x96_S8x512x96x96_3_2_2_3_01_01_wf : DotDims.WF S8x512x96x96 S8x512x96x96 S8x512x96x96 [3] [2] [2] [3] [0, 1] [0, 1]

variable [Facts₀]

def dot_S8x96x96x512_S1536x512_S8x96x96x1536_3_1_012_0_n_n : DotDims S8x96x96x512 S1536x512 S8x96x96x1536 where
  lhsContracting := [3]
  rhsContracting := [1]
  lhsNonContracting := [0, 1, 2]
  rhsNonContracting := [0]
  lhsBatch := []
  rhsBatch := []
  wf := dot_S8x96x96x512_S1536x512_S8x96x96x1536_3_1_012_0_n_n_wf
def dot_S8x512x96x96_S8x512x96x96_S8x512x96x96_3_3_2_2_01_01 : DotDims S8x512x96x96 S8x512x96x96 S8x512x96x96 where
  lhsContracting := [3]
  rhsContracting := [3]
  lhsNonContracting := [2]
  rhsNonContracting := [2]
  lhsBatch := [0, 1]
  rhsBatch := [0, 1]
  wf := dot_S8x512x96x96_S8x512x96x96_S8x512x96x96_3_3_2_2_01_01_wf
def dot_S8x512x96x96_S8x512x96x96_S8x512x96x96_3_2_2_3_01_01 : DotDims S8x512x96x96 S8x512x96x96 S8x512x96x96 where
  lhsContracting := [3]
  rhsContracting := [2]
  lhsNonContracting := [2]
  rhsNonContracting := [3]
  lhsBatch := [0, 1]
  rhsBatch := [0, 1]
  wf := dot_S8x512x96x96_S8x512x96x96_S8x512x96x96_3_2_2_3_01_01_wf

class Facts : Prop extends Facts₀ where

variable [Facts]
-- ==== Proof.Run.lean ====
/-
  The whole program's run, with the result array read: every weakly fair execution of the three launches and the host
  lines around them ends with the result buffer at the contents the last host line leaves, and the three argument
  arrays as they were launched.
-/
import proofs.«141594_j28956669509998_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates without a fault; the result buffer ends at the last boundary's contents, the arguments
    as launched. -/
theorem run : θ_run defs (onTc (τ := τ) (main (F := F))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Whole

end
-- ==== Proof.Stretch.lean ====
/-
  What the host lines between the three kernel launches write: the transposed weight and the two flattened inputs
  before the projections; the three head stacks (a row-major re-reading of the projected rows, a slice of one group,
  the batch and channel axes merged) before the attention; the result with its batch and channel axes split again.
-/
import proofs.«141594_j28956669509998_2_alg».proof.Proof.Gen.KernelIdeal.Frame
import Idealize.ShloMosaic.Lib.StableHlo.Run

noncomputable section

namespace Cert.KernelIdeal.Stretch

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The weight as the projections read it: transposed. -/
theorem weight (c : Dev nD) :
    (W1 m ρ c (Proc.devRef .tc main_v0) : S512x1536.Idx → Elt F .f32)
      = transpose S512x1536 [1, 0] (m ((c : Thread nD τ).loc main_arg2)) transposes_S1536x512_S512x1536_1_0 := by
  show StableHlo.after hostOps0 (W0 m ρ c) (Proc.devRef .tc main_v0) = _
  after_results

/-- The first input with its two spatial axes merged. -/
theorem flatX (c : Dev nD) :
    (W1 m ρ c (Proc.devRef .tc main_v1) : S8x512x9216.Idx → Elt F .f32)
      = shapeCast S8x512x9216 (m ((c : Thread nD τ).loc main_arg0)) shapeCasts_S8x512x96x96_S8x512x9216 := by
  show StableHlo.after hostOps0 (W0 m ρ c) (Proc.devRef .tc main_v1) = _
  after_results; rfl

/-- The second input with its two spatial axes merged. -/
theorem flatY (c : Dev nD) :
    (W1 m ρ c (Proc.devRef .tc main_v2) : S8x512x9216.Idx → Elt F .f32)
      = shapeCast S8x512x9216 (m ((c : Thread nD τ).loc main_arg1)) shapeCasts_S8x512x96x96_S8x512x9216 := by
  show StableHlo.after hostOps0 (W0 m ρ c) (Proc.devRef .tc main_v2) = _
  after_results; rfl

/-- The query stack: the second projection's rows re-read as [8, 512, 96, 96], batch and channel merged. -/
theorem queries (c : Dev nD) :
    (W4 m ρ c (Proc.devRef .tc main_v11) : S4096x96x96.Idx → Elt F .bf16)
      = shapeCast S4096x96x96 (shapeCast S8x512x96x96 (W3 m ρ c (Proc.devRef .tc main_v4) : S8x3072x1536.Idx → Elt F .bf16)
          shapeCasts_S8x3072x1536_S8x512x96x96) shapeCasts_S8x512x96x96_S4096x96x96 := by
  show StableHlo.after hostOps2 (W3 m ρ c) (Proc.devRef .tc main_v11) = _
  after_results; rfl

/-- The key stack: group 0 of the first projection's rows re-read as [8, 2, 512, 96, 96]. -/
theorem keys (c : Dev nD) :
    (W4 m ρ c (Proc.devRef .tc main_v12) : S4096x96x96.Idx → Elt F .bf16)
      = shapeCast S4096x96x96 (shapeCast S8x512x96x96 (extractStridedSlice S8x1x512x96x96 ![0, 0, 0, 0, 0]
          (shapeCast S8x2x512x96x96 (W3 m ρ c (Proc.devRef .tc main_v3) : S8x6144x1536.Idx → Elt F .bf16) shapeCasts_S8x6144x1536_S8x2x512x96x96)
          slices_S8x2x512x96x96_S8x1x512x96x96_0_0_0_0_0) shapeCasts_S8x1x512x96x96_S8x512x96x96) shapeCasts_S8x512x96x96_S4096x96x96 := by
  show StableHlo.after hostOps2 (W3 m ρ c) (Proc.devRef .tc main_v12) = _
  after_results; rfl

/-- The value stack: group 1 of the same re-reading. -/
theorem values (c : Dev nD) :
    (W4 m ρ c (Proc.devRef .tc main_v13) : S4096x96x96.Idx → Elt F .bf16)
      = shapeCast S4096x96x96 (shapeCast S8x512x96x96 (extractStridedSlice S8x1x512x96x96 ![0, 1, 0, 0, 0]
          (shapeCast S8x2x512x96x96 (W3 m ρ c (Proc.devRef .tc main_v3) : S8x6144x1536.Idx → Elt F .bf16) shapeCasts_S8x6144x1536_S8x2x512x96x96)
          slices_S8x2x512x96x96_S8x1x512x96x96_0_1_0_0_0) shapeCasts_S8x1x512x96x96_S8x512x96x96) shapeCasts_S8x512x96x96_S4096x96x96 := by
  show StableHlo.after hostOps2 (W3 m ρ c) (Proc.devRef .tc main_v13) = _
  after_results; rfl

/-- The result: the attention's output with the head axis split into batch and channel. -/
theorem result (c : Dev nD) :
    (W6 m ρ c (Proc.devRef .tc main_v15) : S8x512x96x96.Idx → Elt F .f32)
      = shapeCast S8x512x96x96 (W5 m ρ c (Proc.devRef .tc main_v14) : S4096x96x96.Idx → Elt F .f32) shapeCasts_S4096x96x96_S8x512x96x96 := by
  show StableHlo.after hostOps3 (W5 m ρ c) (Proc.devRef .tc main_v15) = _
  after_results; rfl

end Cert.KernelIdeal.Stretch

end
-- ==== Proof.ProjBody.lean ====
/-
  The projection kernel's body at an index: row `r` of the output block against output channel `o` is the sum over the
  512 channels of the input block at (channel, r) times the weight block at (channel, o) — the block transposed and
  multiplied, with the changes of float format the identity on the extended reals.
-/
import proofs.«141594_j28956669509998_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.ProjBody

open Cert.KernelIdeal Cert.KernelIdeal.Gen Idealize.ShloMosaic Idealize.ShloMosaic.ValueIdx

theorem mm_l0 (i : S768x1536.Idx) (q : dot_S768x512_S512x1536_S768x1536_1_0_0_1_n_n.contr.Idx) :
    (dot_S768x512_S512x1536_S768x1536_1_0_0_1_n_n.lhsIdx i q 0).val = (i 0).val := by
  unfold DotDims.lhsIdx
  rw [dif_neg (show ¬(0 : Fin S768x512.rank) ∈ dot_S768x512_S512x1536_S768x1536_1_0_0_1_n_n.lhsBatch by decide), dif_pos (show (0 : Fin S768x512.rank) ∈ dot_S768x512_S512x1536_S768x1536_1_0_0_1_n_n.lhsNonContracting by decide)]
  rfl
theorem mm_l1 (i : S768x1536.Idx) (q : dot_S768x512_S512x1536_S768x1536_1_0_0_1_n_n.contr.Idx) :
    (dot_S768x512_S512x1536_S768x1536_1_0_0_1_n_n.lhsIdx i q 1).val = (q ⟨0, by decide⟩).val :=
  dot_S768x512_S512x1536_S768x1536_1_0_0_1_n_n.lhsIdx_val_of_single rfl i q
theorem mm_r0 (i : S768x1536.Idx) (q : dot_S768x512_S512x1536_S768x1536_1_0_0_1_n_n.contr.Idx) :
    (dot_S768x512_S512x1536_S768x1536_1_0_0_1_n_n.rhsIdx i q 0).val = (q ⟨0, by decide⟩).val :=
  dot_S768x512_S512x1536_S768x1536_1_0_0_1_n_n.rhsIdx_val_of_single rfl i q
theorem mm_r1 (i : S768x1536.Idx) (q : dot_S768x512_S512x1536_S768x1536_1_0_0_1_n_n.contr.Idx) :
    (dot_S768x512_S512x1536_S768x1536_1_0_0_1_n_n.rhsIdx i q 1).val = (i 1).val := by
  unfold DotDims.rhsIdx
  rw [dif_neg (show ¬(1 : Fin S512x1536.rank) ∈ dot_S768x512_S512x1536_S768x1536_1_0_0_1_n_n.rhsBatch by decide), dif_pos (show (1 : Fin S512x1536.rank) ∈ dot_S768x512_S512x1536_S768x1536_1_0_0_1_n_n.rhsNonContracting by decide)]
  rfl

/-- The block product at (r, o): the sum over the channels. -/
theorem product_apply (A : FVec Ideal S768x512 .bf16) (B : FVec Ideal S512x1536 .bf16) (r : Fin 768) (o : Fin 1536) :
    matmul dot_S768x512_S512x1536_S768x1536_1_0_0_1_n_n none A B (constant S768x1536 .f32 0x00000000#32) (ix2 r o)
      = ∑ k : Fin 512, A (ix2 r k) * B (ix2 k o) := by
  simp only [matmul]
  rw [Ideal.matmul_constant_zero_apply, ← Equiv.sum_comp (ValueIdx.contrEquiv1 dot_S768x512_S512x1536_S768x1536_1_0_0_1_n_n 512 rfl rfl).symm]
  refine Finset.sum_congr rfl fun k _ => ?_
  have hk := ValueIdx.contrEquiv1_symm_val dot_S768x512_S512x1536_S768x1536_1_0_0_1_n_n 512 rfl rfl k
  have el : dot_S768x512_S512x1536_S768x1536_1_0_0_1_n_n.lhsIdx (ix2 r o) ((ValueIdx.contrEquiv1 dot_S768x512_S512x1536_S768x1536_1_0_0_1_n_n 512 rfl rfl).symm k) = ix2 r k := funext fun a => Fin.ext (by
    match a with
    | ⟨0, _⟩ => exact mm_l0 _ _
    | ⟨1, _⟩ => exact (mm_l1 _ _).trans hk)
  have er : dot_S768x512_S512x1536_S768x1536_1_0_0_1_n_n.rhsIdx (ix2 r o) ((ValueIdx.contrEquiv1 dot_S768x512_S512x1536_S768x1536_1_0_0_1_n_n 512 rfl rfl).symm k) = ix2 k o := funext fun a => Fin.ext (by
    match a with
    | ⟨0, _⟩ => exact (mm_r0 _ _).trans hk
    | ⟨1, _⟩ => exact mm_r1 _ _)
  rw [el, er]

/-- The input block transposed, at (r, k): the block at (0, k, r). -/
theorem lhs_apply (x0 : Vec Ideal S1x512x768 .f32) (r : Fin 768) (k : Fin 512) :
    (transpose S768x512 [1, 0] (truncf .bf16 (shapeCast S512x768 x0 shapeCasts_S1x512x768_S512x768) bitsLt_bf16_f32) transposes_S512x768_p1_0_S768x512 : FVec Ideal S768x512 .bf16) (ix2 r k)
      = x0 (ix3 (0 : Fin 1) k r) := by
  refine (transpose_apply [1, 0] _ transposes_S512x768_p1_0_S768x512 (ix2 r k) (ix2 k r) (fun b => match b with
    | ⟨0, _⟩ => rfl
    | ⟨1, _⟩ => rfl)).trans ?_
  show shapeCast S512x768 x0 shapeCasts_S1x512x768_S512x768 (ix2 k r) = _
  exact shapeCast_apply x0 shapeCasts_S1x512x768_S512x768 (ix2 k r) (ix3 (0 : Fin 1) k r) (by
    rw [Shape.rowMajor_val_three, Shape.rowMajor_val_two]
    show ((0 : Fin 1).val * 512 + k.val) * 768 + r.val = k.val * 768 + r.val
    simp)

/-- The weight block at (k, o), its cast to its own shape the identity. -/
theorem rhs_apply (x1 : Vec Ideal S512x1536 .f32) (k : Fin 512) (o : Fin 1536) :
    (truncf .bf16 (shapeCast S512x1536 x1 shapeCasts_S512x1536_S512x1536) bitsLt_bf16_f32 : FVec Ideal S512x1536 .bf16) (ix2 k o) = x1 (ix2 k o) := by
  show shapeCast S512x1536 x1 shapeCasts_S512x1536_S512x1536 (ix2 k o) = _
  rw [shapeCast_self]

/-- A [768, 1536] block given a leading unit axis, at (0, r, o). -/
theorem out_apply (v : FVec Ideal S768x1536 .bf16) (r : Fin 768) (o : Fin 1536) :
    shapeCast S1x768x1536 v shapeCasts_S768x1536_S1x768x1536 (ix3 (0 : Fin 1) r o) = v (ix2 r o) :=
  shapeCast_apply v shapeCasts_S768x1536_S1x768x1536 (ix3 (0 : Fin 1) r o) (ix2 r o) (by
    rw [Shape.rowMajor_val_three, Shape.rowMajor_val_two]
    show r.val * 1536 + o.val = ((0 : Fin 1).val * 768 + r.val) * 1536 + o.val
    simp)

/-- The first projection's stored block at (0, r, o). -/
theorem body0_apply (x0 : Vec Ideal S1x512x768 .f32) (x1 : Vec Ideal S512x1536 .f32) (r : Fin 768) (o : Fin 1536) :
    k0_pay1 (F := Ideal) x0 x1 (ix3 (0 : Fin 1) r o) = ∑ k : Fin 512, x0 (ix3 (0 : Fin 1) k r) * x1 (ix2 k o) := by
  unfold k0_pay1
  refine (out_apply _ r o).trans ?_
  refine (product_apply _ _ r o).trans ?_
  refine Finset.sum_congr rfl fun k _ => ?_
  rw [lhs_apply x0 r k, rhs_apply x1 k o]

/-- The second projection's stored block at (0, r, o): the same body. -/
theorem body1_apply (x0 : Vec Ideal S1x512x768 .f32) (x1 : Vec Ideal S512x1536 .f32) (r : Fin 768) (o : Fin 1536) :
    k1_pay1 (F := Ideal) x0 x1 (ix3 (0 : Fin 1) r o) = ∑ k : Fin 512, x0 (ix3 (0 : Fin 1) k r) * x1 (ix2 k o) := by
  unfold k1_pay1
  refine (out_apply _ r o).trans ?_
  refine (product_apply _ _ r o).trans ?_
  refine Finset.sum_congr rfl fun k _ => ?_
  rw [lhs_apply x0 r k, rhs_apply x1 k o]

end Cert.KernelIdeal.ProjBody

end
-- ==== Proof.Region0.lean ====
/-
  What the first projection launch leaves in its output array. The grid is (batch, row tile): point (b, i) reads the
  [512, 768] slab of batch b at row tile 4 + i and the whole transposed weight, and writes the [768, 1536] block of batch b
  at row tile i. So the array ends, at (b, r, o), at the sum over the channels of the flattened input at (b, channel, 3072 + r)
  times the weight at (channel, o): the blocks are restrictions of that one function, and they tile the array.
-/
import proofs.«141594_j28956669509998_2_alg».proof.Proof.Gen.KernelIdeal.Frame
import proofs.«141594_j28956669509998_2_alg».proof.Proof.ProjBody
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The projected rows: at (b, r, o) the channels of the flattened input at row 3072 + r against the weight's column o. -/
def rows (a1 : S8x512x9216.Idx → EReal) (a0 : S512x1536.Idx → EReal) : S8x6144x1536.Idx → EReal := fun idx =>
  ∑ k : Fin 512, a1 (ix3 (⟨(idx 0).val, (idx 0).isLt⟩ : Fin 8) k
        (⟨3072 + (idx 1).val, by have h : (idx 1).val < 6144 := (idx 1).isLt; omega⟩ : Fin 9216))
      * a0 (ix2 k (⟨(idx 2).val, (idx 2).isLt⟩ : Fin 1536))

/-- The index maps over the grid: the input slab moves with the output block, 4 row tiles ahead; the weight stays. -/
theorem idx_facts : ∀ t : Fin cfg0.N,
    win0_0.index t (0 : Fin 3) = win0_2.index t (0 : Fin 3) ∧ win0_0.index t (1 : Fin 3) = 0
    ∧ win0_0.index t (2 : Fin 3) = win0_2.index t (1 : Fin 3) + 4
    ∧ win0_1.index t (0 : Fin 2) = 0 ∧ win0_1.index t (1 : Fin 2) = 0
    ∧ win0_2.index t (0 : Fin 3) ≤ 7 ∧ win0_2.index t (1 : Fin 3) ≤ 7 ∧ win0_2.index t (2 : Fin 3) = 0 :=
  (by decide +kernel : ∀ t : Fin grid0.N, _)

/-- Every (batch, row tile) is some point's output block. -/
theorem idx_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- What point `t` writes back is block `t` of the projected rows of the arrays as the launch finds them. -/
theorem flushed_eq (c : Dev nD) (t : Fin cfg0.N) :
    (dat0 V c).flushed 2 t = ((cfg0.win 2).blk t).view.read (Elt Ideal) (rows (V c main_v1) (V c main_v0)) := by
  show (cfg0.win 2).cut (grid0.coords t) ((dat0 V c).after 2 t) = _
  rw [after0_2]
  unfold out0_2
  rw [View.canon_unit_zero hz3]
  simp only [View.ld_unit_zero (S := S1x512x768) hz3, View.ld_unit_zero (S := S512x1536) hz2]
  obtain ⟨e0, e1, e2, e3, e4, e5, e6, e7⟩ := idx_facts t
  funext y
  obtain ⟨r, o, rfl⟩ : ∃ (r : Fin 768) (o : Fin 1536), y = ix3 (0 : Fin 1) r o :=
    ⟨⟨(y 1).val, (y 1).isLt⟩, ⟨(y 2).val, (y 2).isLt⟩, funext fun d => Fin.ext (by
      match d with
      | ⟨0, _⟩ => have h : (y 0).val < 1 := (y 0).isLt; show (y 0).val = 0; omega
      | ⟨1, _⟩ => rfl
      | ⟨2, _⟩ => rfl)⟩
  show k0_pay1 (F := Ideal) (iblk0 V c 0 t) (iblk0 V c 1 t) (ix3 (0 : Fin 1) r o)
      = rows (V c main_v1) (V c main_v0) (((cfg0.win 2).blk t).view.emb (ix3 (0 : Fin 1) r o))
  refine (ProjBody.body0_apply (iblk0 V c 0 t) (iblk0 V c 1 t) r o).trans ?_
  unfold rows
  refine Finset.sum_congr rfl fun k _ => ?_
  refine congrArg₂ (fun (x y : EReal) => x * y) ?_ ?_
  · show V c main_v1 (((cfg0.win 0).blk t).view.emb (ix3 (0 : Fin 1) k r)) = _
    refine congrArg (V c main_v1) (funext fun d => Fin.ext ?_)
    match d with
    | ⟨0, _⟩ =>
      show win0_0.index t (0 : Fin 3) * 1 + 1 * 0 = win0_2.index t (0 : Fin 3) * 1 + 1 * 0
      omega
    | ⟨1, _⟩ =>
      show win0_0.index t (1 : Fin 3) * 512 + 1 * k.val = k.val
      omega
    | ⟨2, _⟩ =>
      show win0_0.index t (2 : Fin 3) * 768 + 1 * r.val = 3072 + (win0_2.index t (1 : Fin 3) * 768 + 1 * r.val)
      omega
  · show V c main_v0 (((cfg0.win 1).blk t).view.emb (ix2 k o)) = _
    refine congrArg (V c main_v0) (funext fun d => Fin.ext ?_)
    match d with
    | ⟨0, _⟩ =>
      show win0_1.index t (0 : Fin 2) * 512 + 1 * k.val = k.val
      omega
    | ⟨1, _⟩ =>
      show win0_1.index t (1 : Fin 2) * 1536 + 1 * o.val = win0_2.index t (2 : Fin 3) * 1536 + 1 * o.val
      omega

/-- An index of the array is in point `t`'s block iff each coordinate is in the block's range on its axis. -/
theorem mem_blk (t : Fin cfg0.N) (i : S8x6144x1536.Idx) :
    i ∈ ((cfg0.win 2).blk t).view.set ↔ ∀ a : Fin 3, win0_2.index t a * S1x768x1536.size a ≤ (i a).val
      ∧ (i a).val < win0_2.index t a * S1x768x1536.size a + S1x768x1536.size a := by
  show i ∈ ((View.whole main_v3).slice (win0_2.rect t)).set ↔ _
  rw [View.set_slice_whole, Rect.mem_set_unit]
  exact Iff.rfl

/-- The blocks tile the array: row r of batch b is in the block of row tile r / 768. -/
theorem cover (i : S8x6144x1536.Idx) : ∃ t : Fin cfg0.N, (cfg0.win 2).flush t = true ∧ i ∈ ((cfg0.win 2).blk t).view.set := by
  have hi0 : (i 0).val < 8 := (i 0).isLt
  have hi1 : (i 1).val < 6144 := (i 1).isLt
  have hi2 : (i 2).val < 1536 := (i 2).isLt
  obtain ⟨t, ht⟩ := idx_onto ⟨(i 0).val, hi0⟩ ⟨(i 1).val / 768, by omega⟩
  have q0 : win0_2.index t (0 : Fin 3) = (i 0).val := congrFun ht 0
  have q1 : win0_2.index t (1 : Fin 3) = (i 1).val / 768 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 768 ≤ (i 1).val ∧ (i 1).val < win0_2.index t (1 : Fin 3) * 768 + 768
    omega
  | ⟨2, _⟩ =>
    show win0_2.index t (2 : Fin 3) * 1536 ≤ (i 2).val ∧ (i 2).val < win0_2.index t (2 : Fin 3) * 1536 + 1536
    omega

/-- THE OUTPUT ARRAY after the launch: the projected rows of the arrays as the launch finds them. -/
theorem final (c : Dev nD) : (dat0 V c).arrAt 2 cfg0.N = rows (V c main_v1) (V c main_v0) :=
  (dat0 V c).arrAt_eq_of_cover 2 (rows (V c main_v1) (V c main_v0)) (fun t _ => flushed_eq V c t) cover

end Cert.KernelIdeal.Region0

end
-- ==== Proof.Region1.lean ====
/-
  What the second projection launch leaves in its output array. The grid is (batch, row tile): point (b, i) reads the
  [512, 768] slab of batch b at row tile 0 + i and the whole transposed weight, and writes the [768, 1536] block of batch b
  at row tile i. So the array ends, at (b, r, o), at the sum over the channels of the flattened input at (b, channel, 0 + r)
  times the weight at (channel, o): the blocks are restrictions of that one function, and they tile the array.
-/
import proofs.«141594_j28956669509998_2_alg».proof.Proof.Gen.KernelIdeal.Frame
import proofs.«141594_j28956669509998_2_alg».proof.Proof.ProjBody
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The projected rows: at (b, r, o) the channels of the flattened input at row 0 + r against the weight's column o. -/
def rows (a1 : S8x512x9216.Idx → EReal) (a0 : S512x1536.Idx → EReal) : S8x3072x1536.Idx → EReal := fun idx =>
  ∑ k : Fin 512, a1 (ix3 (⟨(idx 0).val, (idx 0).isLt⟩ : Fin 8) k
        (⟨0 + (idx 1).val, by have h : (idx 1).val < 3072 := (idx 1).isLt; omega⟩ : Fin 9216))
      * a0 (ix2 k (⟨(idx 2).val, (idx 2).isLt⟩ : Fin 1536))

/-- The index maps over the grid: the input slab moves with the output block, 0 row tiles ahead; the weight stays. -/
theorem idx_facts : ∀ t : Fin cfg1.N,
    win1_0.index t (0 : Fin 3) = win1_2.index t (0 : Fin 3) ∧ win1_0.index t (1 : Fin 3) = 0
    ∧ win1_0.index t (2 : Fin 3) = win1_2.index t (1 : Fin 3) + 0
    ∧ win1_1.index t (0 : Fin 2) = 0 ∧ win1_1.index t (1 : Fin 2) = 0
    ∧ win1_2.index t (0 : Fin 3) ≤ 7 ∧ win1_2.index t (1 : Fin 3) ≤ 3 ∧ win1_2.index t (2 : Fin 3) = 0 :=
  (by decide +kernel : ∀ t : Fin grid1.N, _)

/-- Every (batch, row tile) is some point's output block. -/
theorem idx_onto : ∀ (q0 : Fin 8) (q1 : Fin 4), ∃ t : Fin cfg1.N, win1_2.index t = ![q0.val, q1.val, 0] :=
  (by decide +kernel : ∀ (q0 : Fin 8) (q1 : Fin 4), ∃ t : Fin grid1.N, win1_2.index t = ![q0.val, q1.val, 0])

/-- What point `t` writes back is block `t` of the projected rows of the arrays as the launch finds them. -/
theorem flushed_eq (c : Dev nD) (t : Fin cfg1.N) :
    (dat1 V c).flushed 2 t = ((cfg1.win 2).blk t).view.read (Elt Ideal) (rows (V c main_v2) (V c main_v0)) := by
  show (cfg1.win 2).cut (grid1.coords t) ((dat1 V c).after 2 t) = _
  rw [after1_2]
  unfold out1_2
  rw [View.canon_unit_zero hz3]
  simp only [View.ld_unit_zero (S := S1x512x768) hz3, View.ld_unit_zero (S := S512x1536) hz2]
  obtain ⟨e0, e1, e2, e3, e4, e5, e6, e7⟩ := idx_facts t
  funext y
  obtain ⟨r, o, rfl⟩ : ∃ (r : Fin 768) (o : Fin 1536), y = ix3 (0 : Fin 1) r o :=
    ⟨⟨(y 1).val, (y 1).isLt⟩, ⟨(y 2).val, (y 2).isLt⟩, funext fun d => Fin.ext (by
      match d with
      | ⟨0, _⟩ => have h : (y 0).val < 1 := (y 0).isLt; show (y 0).val = 0; omega
      | ⟨1, _⟩ => rfl
      | ⟨2, _⟩ => rfl)⟩
  show k1_pay1 (F := Ideal) (iblk1 V c 0 t) (iblk1 V c 1 t) (ix3 (0 : Fin 1) r o)
      = rows (V c main_v2) (V c main_v0) (((cfg1.win 2).blk t).view.emb (ix3 (0 : Fin 1) r o))
  refine (ProjBody.body1_apply (iblk1 V c 0 t) (iblk1 V c 1 t) r o).trans ?_
  unfold rows
  refine Finset.sum_congr rfl fun k _ => ?_
  refine congrArg₂ (fun (x y : EReal) => x * y) ?_ ?_
  · show V c main_v2 (((cfg1.win 0).blk t).view.emb (ix3 (0 : Fin 1) k r)) = _
    refine congrArg (V c main_v2) (funext fun d => Fin.ext ?_)
    match d with
    | ⟨0, _⟩ =>
      show win1_0.index t (0 : Fin 3) * 1 + 1 * 0 = win1_2.index t (0 : Fin 3) * 1 + 1 * 0
      omega
    | ⟨1, _⟩ =>
      show win1_0.index t (1 : Fin 3) * 512 + 1 * k.val = k.val
      omega
    | ⟨2, _⟩ =>
      show win1_0.index t (2 : Fin 3) * 768 + 1 * r.val = 0 + (win1_2.index t (1 : Fin 3) * 768 + 1 * r.val)
      omega
  · show V c main_v0 (((cfg1.win 1).blk t).view.emb (ix2 k o)) = _
    refine congrArg (V c main_v0) (funext fun d => Fin.ext ?_)
    match d with
    | ⟨0, _⟩ =>
      show win1_1.index t (0 : Fin 2) * 512 + 1 * k.val = k.val
      omega
    | ⟨1, _⟩ =>
      show win1_1.index t (1 : Fin 2) * 1536 + 1 * o.val = win1_2.index t (2 : Fin 3) * 1536 + 1 * o.val
      omega

/-- An index of the array is in point `t`'s block iff each coordinate is in the block's range on its axis. -/
theorem mem_blk (t : Fin cfg1.N) (i : S8x3072x1536.Idx) :
    i ∈ ((cfg1.win 2).blk t).view.set ↔ ∀ a : Fin 3, win1_2.index t a * S1x768x1536.size a ≤ (i a).val
      ∧ (i a).val < win1_2.index t a * S1x768x1536.size a + S1x768x1536.size a := by
  show i ∈ ((View.whole main_v4).slice (win1_2.rect t)).set ↔ _
  rw [View.set_slice_whole, Rect.mem_set_unit]
  exact Iff.rfl

/-- The blocks tile the array: row r of batch b is in the block of row tile r / 768. -/
theorem cover (i : S8x3072x1536.Idx) : ∃ t : Fin cfg1.N, (cfg1.win 2).flush t = true ∧ i ∈ ((cfg1.win 2).blk t).view.set := by
  have hi0 : (i 0).val < 8 := (i 0).isLt
  have hi1 : (i 1).val < 3072 := (i 1).isLt
  have hi2 : (i 2).val < 1536 := (i 2).isLt
  obtain ⟨t, ht⟩ := idx_onto ⟨(i 0).val, hi0⟩ ⟨(i 1).val / 768, by omega⟩
  have q0 : win1_2.index t (0 : Fin 3) = (i 0).val := congrFun ht 0
  have q1 : win1_2.index t (1 : Fin 3) = (i 1).val / 768 := congrFun ht 1
  have q2 : win1_2.index t (2 : Fin 3) = 0 := congrFun ht 2
  refine ⟨t, flush1_2 t, ?_⟩
  rw [mem_blk]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 768 ≤ (i 1).val ∧ (i 1).val < win1_2.index t (1 : Fin 3) * 768 + 768
    omega
  | ⟨2, _⟩ =>
    show win1_2.index t (2 : Fin 3) * 1536 ≤ (i 2).val ∧ (i 2).val < win1_2.index t (2 : Fin 3) * 1536 + 1536
    omega

/-- THE OUTPUT ARRAY after the launch: the projected rows of the arrays as the launch finds them. -/
theorem final (c : Dev nD) : (dat1 V c).arrAt 2 cfg1.N = rows (V c main_v2) (V c main_v0) :=
  (dat1 V c).arrAt_eq_of_cover 2 (rows (V c main_v2) (V c main_v0)) (fun t _ => flushed_eq V c t) cover

end Cert.KernelIdeal.Region1

end
-- ==== Proof.Spec.lean ====
/-
  The mathematics both programs compute, on the extended reals.

  Each input [8, 512, 96, 96] is projected position by position: for batch b and position (h, w) the 512 channels are
  contracted against row o of the weight [1536, 512], giving 1536 numbers per position. The 96·96·1536 numbers of a
  batch, in row-major order, are then re-read as three groups of [512, 96, 96]: group s, channel c, row i, column j is
  the number at flat position s·(512·96·96) + c·(96·96) + i·96 + j, which is position (h, w) = (p / (96·1536), p / 1536 mod 96)
  and output o = p mod 1536. The queries are group 0 of the second input's projection, the keys and the values groups 1 and 2
  of the first input's. For each batch and channel the 96×96 queries, keys and values give one softmax attention:
  scores q·kᵀ scaled by 1/8, each row shifted by its maximum, exponentiated, divided by the row's sum, and multiplied into
  the values.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of the two inputs and of the result. -/
abbrev Act : Shape := ⟨4, ![8, 512, 96, 96]⟩
/-- The shape of the weight. -/
abbrev Wgt : Shape := ⟨2, ![1536, 512]⟩

/-- The scale 1/8 as both programs spell it. -/
def scale : EReal := Ideal.ofBits .f32 0x3E000000#32
/-- The value a row maximum starts from: minus infinity. -/
def bottom : EReal := Ideal.ofBits .f32 0xFF800000#32

/-- Minus infinity is neutral for the maximum. -/
theorem max_bottom (y : EReal) : max bottom y = y := by
  unfold bottom; simp [Ideal.ofBits, Ideal.ieee]

/-- The float zero is the real zero. -/
theorem zero_word : Ideal.ofBits .f32 0x00000000#32 = 0 := Ideal.ofBits_zero_f32

/-- The scaled score of query row `i` against key row `a`. -/
def score (q k : Fin 96 → Fin 96 → EReal) (i a : Fin 96) : EReal := (∑ j : Fin 96, q i j * k a j) * scale

/-- The maximum of query row `i`'s scores. -/
def rowMax (q k : Fin 96 → Fin 96 → EReal) (i : Fin 96) : EReal :=
  (Finset.univ : Finset (Fin 96)).fold max bottom (fun a => score q k i a)

/-- The unnormalised softmax weight: the exponential of the score shifted by its row's maximum. -/
def weightOf (q k : Fin 96 → Fin 96 → EReal) (i a : Fin 96) : EReal := Ideal.exp (score q k i a - rowMax q k i)

/-- One head of attention: the normalised weights of row `i` multiplied into column `w` of the values. -/
def head (q k v : Fin 96 → Fin 96 → EReal) (i w : Fin 96) : EReal :=
  ∑ a : Fin 96, Ideal.div (weightOf q k i a) (∑ a' : Fin 96, weightOf q k i a') * v a w

/-- The projection of batch `b`, position (`h`, `w`) onto output `o`: the channels contracted against the weight's row. -/
def proj (X : Act.Idx → EReal) (Wt : Wgt.Idx → EReal) (b : Fin 8) (h w : Fin 96) (o : Fin 1536) : EReal :=
  ∑ k : Fin 512, X (ix4 b k h w) * Wt (ix2 o k)

/-- Group `s` of the row-major re-reading of a batch's projected positions, at channel `c`, row `i`, column `j`. -/
def group (X : Act.Idx → EReal) (Wt : Wgt.Idx → EReal) (s : Fin 3) (b : Fin 8) (c : Fin 512) (i j : Fin 96) : EReal :=
  proj X Wt b
    ⟨(s.val * 4718592 + c.val * 9216 + i.val * 96 + j.val) / 147456, by
      have := s.isLt; have := c.isLt; have := i.isLt; have := j.isLt; omega⟩
    ⟨(s.val * 4718592 + c.val * 9216 + i.val * 96 + j.val) / 1536 % 96, Nat.mod_lt _ (by decide)⟩
    ⟨(s.val * 4718592 + c.val * 9216 + i.val * 96 + j.val) % 1536, Nat.mod_lt _ (by decide)⟩

/-- The result: per batch and channel, attention of the second input's group 0 against the first input's groups 1 and 2. -/
def G (X Y : Act.Idx → EReal) (Wt : Wgt.Idx → EReal) : Act.Idx → EReal := fun idx =>
  head (group Y Wt 0 ⟨(idx 0).val, (idx 0).isLt⟩ ⟨(idx 1).val, (idx 1).isLt⟩)
    (group X Wt 1 ⟨(idx 0).val, (idx 0).isLt⟩ ⟨(idx 1).val, (idx 1).isLt⟩)
    (group X Wt 2 ⟨(idx 0).val, (idx 0).isLt⟩ ⟨(idx 1).val, (idx 1).isLt⟩)
    ⟨(idx 2).val, (idx 2).isLt⟩ ⟨(idx 3).val, (idx 3).isLt⟩

theorem G_apply (X Y : Act.Idx → EReal) (Wt : Wgt.Idx → EReal) (b : Fin 8) (c : Fin 512) (i w : Fin 96) :
    G X Y Wt (ix4 b c i w) = head (group Y Wt 0 b c) (group X Wt 1 b c) (group X Wt 2 b c) i w := rfl

end Cert.Attn

end
-- ==== Proof.HeadBody.lean ====
/-
  The attention kernel's body at an index. A block holds 64 heads; for head `n` the stored block at (n, i, w) is one head
  of attention (Spec.lean `head`) of the three loaded blocks' slices at `n`: the scores are the first block product scaled,
  each row's maximum a fold of `max` from minus infinity, the weights the exponentials of the shifted scores, their
  normalisation the quotient by the row's sum, and the result the second block product with the values. The changes of
  float format are the identity on the extended reals.
-/
import proofs.«141594_j28956669509998_2_alg».proof.Proof.Gen.KernelIdeal.Skeleton
import proofs.«141594_j28956669509998_2_alg».proof.Proof.Spec
import Idealize.ShloMosaic.Lib.Pipeline.Value
import Idealize.ShloMosaic.Lib.ValueIdx
import Idealize.ShloMosaic.PureOps.Ideal.Laws

noncomputable section

namespace Cert.KernelIdeal.HeadBody

open Cert.KernelIdeal Cert.KernelIdeal.Gen Idealize.ShloMosaic Idealize.ShloMosaic.ValueIdx Cert.Attn

/-! ## The two block products at an index -/

theorem qk_l0 (i : S64x96x96.Idx) (q : dot_S64x96x96_S64x96x96_S64x96x96_2_2_1_1_0_0.contr.Idx) :
    (dot_S64x96x96_S64x96x96_S64x96x96_2_2_1_1_0_0.lhsIdx i q 0).val = (i 0).val := by
  unfold DotDims.lhsIdx
  rw [dif_pos (show (0 : Fin S64x96x96.rank) ∈ dot_S64x96x96_S64x96x96_S64x96x96_2_2_1_1_0_0.lhsBatch by decide)]
  rfl
theorem qk_l1 (i : S64x96x96.Idx) (q : dot_S64x96x96_S64x96x96_S64x96x96_2_2_1_1_0_0.contr.Idx) :
    (dot_S64x96x96_S64x96x96_S64x96x96_2_2_1_1_0_0.lhsIdx i q 1).val = (i 1).val := by
  unfold DotDims.lhsIdx
  rw [dif_neg (show ¬(1 : Fin S64x96x96.rank) ∈ dot_S64x96x96_S64x96x96_S64x96x96_2_2_1_1_0_0.lhsBatch by decide), dif_pos (show (1 : Fin S64x96x96.rank) ∈ dot_S64x96x96_S64x96x96_S64x96x96_2_2_1_1_0_0.lhsNonContracting by decide)]
  rfl
theorem qk_l2 (i : S64x96x96.Idx) (q : dot_S64x96x96_S64x96x96_S64x96x96_2_2_1_1_0_0.contr.Idx) :
    (dot_S64x96x96_S64x96x96_S64x96x96_2_2_1_1_0_0.lhsIdx i q 2).val = (q ⟨0, by decide⟩).val :=
  dot_S64x96x96_S64x96x96_S64x96x96_2_2_1_1_0_0.lhsIdx_val_of_single rfl i q
theorem qk_r0 (i : S64x96x96.Idx) (q : dot_S64x96x96_S64x96x96_S64x96x96_2_2_1_1_0_0.contr.Idx) :
    (dot_S64x96x96_S64x96x96_S64x96x96_2_2_1_1_0_0.rhsIdx i q 0).val = (i 0).val := by
  unfold DotDims.rhsIdx
  rw [dif_pos (show (0 : Fin S64x96x96.rank) ∈ dot_S64x96x96_S64x96x96_S64x96x96_2_2_1_1_0_0.rhsBatch by decide)]
  rfl
theorem qk_r1 (i : S64x96x96.Idx) (q : dot_S64x96x96_S64x96x96_S64x96x96_2_2_1_1_0_0.contr.Idx) :
    (dot_S64x96x96_S64x96x96_S64x96x96_2_2_1_1_0_0.rhsIdx i q 1).val = (i 2).val := by
  unfold DotDims.rhsIdx
  rw [dif_neg (show ¬(1 : Fin S64x96x96.rank) ∈ dot_S64x96x96_S64x96x96_S64x96x96_2_2_1_1_0_0.rhsBatch by decide), dif_pos (show (1 : Fin S64x96x96.rank) ∈ dot_S64x96x96_S64x96x96_S64x96x96_2_2_1_1_0_0.rhsNonContracting by decide)]
  rfl
theorem qk_r2 (i : S64x96x96.Idx) (q : dot_S64x96x96_S64x96x96_S64x96x96_2_2_1_1_0_0.contr.Idx) :
    (dot_S64x96x96_S64x96x96_S64x96x96_2_2_1_1_0_0.rhsIdx i q 2).val = (q ⟨0, by decide⟩).val :=
  dot_S64x96x96_S64x96x96_S64x96x96_2_2_1_1_0_0.rhsIdx_val_of_single rfl i q
theorem pv_l0 (i : S64x96x96.Idx) (q : dot_S64x96x96_S64x96x96_S64x96x96_2_1_1_2_0_0.contr.Idx) :
    (dot_S64x96x96_S64x96x96_S64x96x96_2_1_1_2_0_0.lhsIdx i q 0).val = (i 0).val := by
  unfold DotDims.lhsIdx
  rw [dif_pos (show (0 : Fin S64x96x96.rank) ∈ dot_S64x96x96_S64x96x96_S64x96x96_2_1_1_2_0_0.lhsBatch by decide)]
  rfl
theorem pv_l1 (i : S64x96x96.Idx) (q : dot_S64x96x96_S64x96x96_S64x96x96_2_1_1_2_0_0.contr.Idx) :
    (dot_S64x96x96_S64x96x96_S64x96x96_2_1_1_2_0_0.lhsIdx i q 1).val = (i 1).val := by
  unfold DotDims.lhsIdx
  rw [dif_neg (show ¬(1 : Fin S64x96x96.rank) ∈ dot_S64x96x96_S64x96x96_S64x96x96_2_1_1_2_0_0.lhsBatch by decide), dif_pos (show (1 : Fin S64x96x96.rank) ∈ dot_S64x96x96_S64x96x96_S64x96x96_2_1_1_2_0_0.lhsNonContracting by decide)]
  rfl
theorem pv_l2 (i : S64x96x96.Idx) (q : dot_S64x96x96_S64x96x96_S64x96x96_2_1_1_2_0_0.contr.Idx) :
    (dot_S64x96x96_S64x96x96_S64x96x96_2_1_1_2_0_0.lhsIdx i q 2).val = (q ⟨0, by decide⟩).val :=
  dot_S64x96x96_S64x96x96_S64x96x96_2_1_1_2_0_0.lhsIdx_val_of_single rfl i q
theorem pv_r0 (i : S64x96x96.Idx) (q : dot_S64x96x96_S64x96x96_S64x96x96_2_1_1_2_0_0.contr.Idx) :
    (dot_S64x96x96_S64x96x96_S64x96x96_2_1_1_2_0_0.rhsIdx i q 0).val = (i 0).val := by
  unfold DotDims.rhsIdx
  rw [dif_pos (show (0 : Fin S64x96x96.rank) ∈ dot_S64x96x96_S64x96x96_S64x96x96_2_1_1_2_0_0.rhsBatch by decide)]
  rfl
theorem pv_r1 (i : S64x96x96.Idx) (q : dot_S64x96x96_S64x96x96_S64x96x96_2_1_1_2_0_0.contr.Idx) :
    (dot_S64x96x96_S64x96x96_S64x96x96_2_1_1_2_0_0.rhsIdx i q 1).val = (q ⟨0, by decide⟩).val :=
  dot_S64x96x96_S64x96x96_S64x96x96_2_1_1_2_0_0.rhsIdx_val_of_single rfl i q
theorem pv_r2 (i : S64x96x96.Idx) (q : dot_S64x96x96_S64x96x96_S64x96x96_2_1_1_2_0_0.contr.Idx) :
    (dot_S64x96x96_S64x96x96_S64x96x96_2_1_1_2_0_0.rhsIdx i q 2).val = (i 2).val := by
  unfold DotDims.rhsIdx
  rw [dif_neg (show ¬(2 : Fin S64x96x96.rank) ∈ dot_S64x96x96_S64x96x96_S64x96x96_2_1_1_2_0_0.rhsBatch by decide), dif_pos (show (2 : Fin S64x96x96.rank) ∈ dot_S64x96x96_S64x96x96_S64x96x96_2_1_1_2_0_0.rhsNonContracting by decide)]
  rfl

/-- Queries against keys, head by head: at (n, i, a) the sum over the columns `j`. -/
theorem qk_apply (A B : FVec Ideal S64x96x96 .bf16) (n : Fin 64) (i a : Fin 96) :
    matmul dot_S64x96x96_S64x96x96_S64x96x96_2_2_1_1_0_0 none A B (constant S64x96x96 .f32 0x00000000#32) (ix3 n i a)
      = ∑ j : Fin 96, A (ix3 n i j) * B (ix3 n a j) := by
  simp only [matmul]
  rw [Ideal.matmul_constant_zero_apply, ← Equiv.sum_comp (ValueIdx.contrEquiv1 dot_S64x96x96_S64x96x96_S64x96x96_2_2_1_1_0_0 96 rfl rfl).symm]
  refine Finset.sum_congr rfl fun k _ => ?_
  have hk := ValueIdx.contrEquiv1_symm_val dot_S64x96x96_S64x96x96_S64x96x96_2_2_1_1_0_0 96 rfl rfl k
  have el : dot_S64x96x96_S64x96x96_S64x96x96_2_2_1_1_0_0.lhsIdx (ix3 n i a) ((ValueIdx.contrEquiv1 dot_S64x96x96_S64x96x96_S64x96x96_2_2_1_1_0_0 96 rfl rfl).symm k) = ix3 n i k := funext fun d => Fin.ext (by
    match d with
    | ⟨0, _⟩ => exact qk_l0 _ _
    | ⟨1, _⟩ => exact qk_l1 _ _
    | ⟨2, _⟩ => exact (qk_l2 _ _).trans hk)
  have er : dot_S64x96x96_S64x96x96_S64x96x96_2_2_1_1_0_0.rhsIdx (ix3 n i a) ((ValueIdx.contrEquiv1 dot_S64x96x96_S64x96x96_S64x96x96_2_2_1_1_0_0 96 rfl rfl).symm k) = ix3 n a k := funext fun d => Fin.ext (by
    match d with
    | ⟨0, _⟩ => exact qk_r0 _ _
    | ⟨1, _⟩ => exact qk_r1 _ _
    | ⟨2, _⟩ => exact (qk_r2 _ _).trans hk)
  rw [el, er]

/-- Weights against values, head by head: at (n, i, w) the sum over the key rows `a`. -/
theorem pv_apply (A B : FVec Ideal S64x96x96 .bf16) (n : Fin 64) (i w : Fin 96) :
    matmul dot_S64x96x96_S64x96x96_S64x96x96_2_1_1_2_0_0 none A B (constant S64x96x96 .f32 0x00000000#32) (ix3 n i w)
      = ∑ a : Fin 96, A (ix3 n i a) * B (ix3 n a w) := by
  simp only [matmul]
  rw [Ideal.matmul_constant_zero_apply, ← Equiv.sum_comp (ValueIdx.contrEquiv1 dot_S64x96x96_S64x96x96_S64x96x96_2_1_1_2_0_0 96 rfl rfl).symm]
  refine Finset.sum_congr rfl fun k _ => ?_
  have hk := ValueIdx.contrEquiv1_symm_val dot_S64x96x96_S64x96x96_S64x96x96_2_1_1_2_0_0 96 rfl rfl k
  have el : dot_S64x96x96_S64x96x96_S64x96x96_2_1_1_2_0_0.lhsIdx (ix3 n i w) ((ValueIdx.contrEquiv1 dot_S64x96x96_S64x96x96_S64x96x96_2_1_1_2_0_0 96 rfl rfl).symm k) = ix3 n i k := funext fun d => Fin.ext (by
    match d with
    | ⟨0, _⟩ => exact pv_l0 _ _
    | ⟨1, _⟩ => exact pv_l1 _ _
    | ⟨2, _⟩ => exact (pv_l2 _ _).trans hk)
  have er : dot_S64x96x96_S64x96x96_S64x96x96_2_1_1_2_0_0.rhsIdx (ix3 n i w) ((ValueIdx.contrEquiv1 dot_S64x96x96_S64x96x96_S64x96x96_2_1_1_2_0_0 96 rfl rfl).symm k) = ix3 n k w := funext fun d => Fin.ext (by
    match d with
    | ⟨0, _⟩ => exact pv_r0 _ _
    | ⟨1, _⟩ => exact (pv_r1 _ _).trans hk
    | ⟨2, _⟩ => exact pv_r2 _ _)
  rw [el, er]

/-! ## A row statistic kept as a column and spread back over the row -/

/-- A [64, 96] array given a trailing unit axis and broadcast along it. -/
def keep (v : FVec Ideal S64x96 .f32) : FVec Ideal S64x96x96 .f32 :=
  broadcastTo S64x96x96 (shapeCast S64x96x1 v shapeCasts_S64x96_S64x96x1) broadcasts_S64x96x1_S64x96x96

/-- At (n, i, a) it is the statistic of row (n, i). -/
theorem keep_apply (v : FVec Ideal S64x96 .f32) (n : Fin 64) (i a : Fin 96) : keep v (ix3 n i a) = v (ix2 n i) := by
  unfold keep
  refine (broadcastTo_apply _ broadcasts_S64x96x1_S64x96x96 (ix3 n i a) (ix3 n i (0 : Fin 1)) (fun d => match d with
    | ⟨0, _⟩ => by show n.val = if (64 : Nat) = 1 then 0 else n.val; rw [if_neg (by decide)]
    | ⟨1, _⟩ => by show i.val = if (96 : Nat) = 1 then 0 else i.val; rw [if_neg (by decide)]
    | ⟨2, _⟩ => by show (0 : Nat) = if (1 : Nat) = 1 then 0 else a.val; rw [if_pos rfl])).trans ?_
  exact shapeCast_apply v shapeCasts_S64x96_S64x96x1 (ix3 n i (0 : Fin 1)) (ix2 n i) (by
    rw [Shape.rowMajor_val_two, Shape.rowMajor_val_three]
    show n.val * 96 + i.val = (n.val * 96 + i.val) * 1 + (0 : Fin 1).val
    simp)

/-- The row index (n, i) with the column `a` put back is (n, i, a). -/
theorem lift_apply (n : Fin 64) (i : Fin 96) (a : Fin (S64x96x96.size 2)) :
    reduces_S64x96x96_S64x96.lift (ix2 n i) a = ix3 n i (⟨a.val, a.isLt⟩ : Fin 96) := by
  funext d; apply Fin.ext
  fin_cases d <;> rfl

/-- A row's maximum: the fold of `max` from minus infinity over the row. -/
theorem rowmax_apply (S : FVec Ideal S64x96x96 .f32) (n : Fin 64) (i : Fin 96) :
    multiReduction .maximumf [2] S64x96 S 0xFF800000#32 reduces_S64x96x96_S64x96 (.inl rfl) rfl (ix2 n i)
      = (Finset.univ : Finset (Fin 96)).fold max bottom (fun a => S (ix3 n i a)) := by
  refine (Ideal.multiReduction_maximumf_single S 0xFF800000#32 reduces_S64x96x96_S64x96 (.inl rfl) rfl (ix2 n i)).trans ?_
  have hf : (S ∘ reduces_S64x96x96_S64x96.lift (ix2 n i)) = fun a : Fin 96 => S (ix3 n i a) :=
    funext fun a => congrArg S (lift_apply n i a)
  exact congrArg (fun f => Finset.fold max bottom f (Finset.univ : Finset (Fin 96))) hf

/-- A row's sum. -/
theorem rowsum_apply (E : FVec Ideal S64x96x96 .f32) (n : Fin 64) (i : Fin 96) :
    multiReduction .add [2] S64x96 E 0x00000000#32 reduces_S64x96x96_S64x96 (.inl rfl) rfl (ix2 n i)
      = ∑ a : Fin 96, E (ix3 n i a) := by
  refine (Ideal.multiReduction_add_single E 0x00000000#32 reduces_S64x96x96_S64x96 (.inl rfl) rfl (ix2 n i)).trans ?_
  exact Finset.sum_congr rfl fun a _ => congrArg E (lift_apply n i a)

/-! ## The body as four stages -/

/-- The scaled scores of the 64 heads. -/
def scoresV (x0 x1 : Vec Ideal S64x96x96 .bf16) : FVec Ideal S64x96x96 .f32 :=
  mulf (matmul dot_S64x96x96_S64x96x96_S64x96x96_2_2_1_1_0_0 none (shapeCast S64x96x96 x0 shapeCasts_S64x96x96_S64x96x96 : FVec Ideal S64x96x96 .bf16) (shapeCast S64x96x96 x1 shapeCasts_S64x96x96_S64x96x96 : FVec Ideal S64x96x96 .bf16)
      (constant S64x96x96 .f32 0x00000000#32))
    (broadcast S64x96x96 (Scalar.ofBits .f32 0x3E000000#32))

/-- The exponentials of the scores shifted by their row's maximum. -/
def weightsV (S : FVec Ideal S64x96x96 .f32) : FVec Ideal S64x96x96 .f32 :=
  exp (subf S (keep (multiReduction .maximumf [2] S64x96 S 0xFF800000#32 reduces_S64x96x96_S64x96 (.inl rfl) rfl)))

/-- The weights divided by their row's sum. -/
def normV (E : FVec Ideal S64x96x96 .f32) : FVec Ideal S64x96x96 .f32 :=
  divf E (keep (multiReduction .add [2] S64x96 E 0x00000000#32 reduces_S64x96x96_S64x96 (.inl rfl) rfl))

/-- The stored block is the second product of the normalised weights with the values. -/
theorem body_eq (x0 x1 x2 : Vec Ideal S64x96x96 .bf16) :
    k2_pay1 (F := Ideal) x0 x1 x2
      = matmul dot_S64x96x96_S64x96x96_S64x96x96_2_1_1_2_0_0 none (truncf .bf16 (normV (weightsV (scoresV x0 x1))) bitsLt_bf16_f32)
          (shapeCast S64x96x96 x2 shapeCasts_S64x96x96_S64x96x96 : FVec Ideal S64x96x96 .bf16) (constant S64x96x96 .f32 0x00000000#32) := rfl

theorem scoresV_apply (x0 x1 : Vec Ideal S64x96x96 .bf16) (n : Fin 64) (i a : Fin 96) :
    scoresV x0 x1 (ix3 n i a) = score (fun r j => x0 (ix3 n r j)) (fun r j => x1 (ix3 n r j)) i a := by
  unfold scoresV score
  show matmul dot_S64x96x96_S64x96x96_S64x96x96_2_2_1_1_0_0 none (shapeCast S64x96x96 x0 shapeCasts_S64x96x96_S64x96x96 : FVec Ideal S64x96x96 .bf16) (shapeCast S64x96x96 x1 shapeCasts_S64x96x96_S64x96x96 : FVec Ideal S64x96x96 .bf16)
      (constant S64x96x96 .f32 0x00000000#32) (ix3 n i a) * scale = _
  rw [qk_apply, shapeCast_self, shapeCast_self]

theorem weightsV_apply (S : FVec Ideal S64x96x96 .f32) (n : Fin 64) (i a : Fin 96) :
    weightsV S (ix3 n i a) = Ideal.exp (S (ix3 n i a) - (Finset.univ : Finset (Fin 96)).fold max bottom (fun r => S (ix3 n i r))) := by
  unfold weightsV
  show Ideal.exp (S (ix3 n i a) - keep _ (ix3 n i a)) = _
  rw [keep_apply, rowmax_apply]

theorem normV_apply (E : FVec Ideal S64x96x96 .f32) (n : Fin 64) (i a : Fin 96) :
    normV E (ix3 n i a) = Ideal.div (E (ix3 n i a)) (∑ r : Fin 96, E (ix3 n i r)) := by
  unfold normV
  show Ideal.div (E (ix3 n i a)) (keep _ (ix3 n i a)) = _
  rw [keep_apply, rowsum_apply]

/-- THE BODY AT AN INDEX: head `n` of the stored block is one head of attention of the loaded blocks' slices at `n`. -/
theorem body_apply (x0 x1 x2 : Vec Ideal S64x96x96 .bf16) (n : Fin 64) (i w : Fin 96) :
    k2_pay1 (F := Ideal) x0 x1 x2 (ix3 n i w)
      = head (fun r j => x0 (ix3 n r j)) (fun r j => x1 (ix3 n r j)) (fun r j => x2 (ix3 n r j)) i w := by
  rw [body_eq]
  refine (pv_apply _ _ n i w).trans ?_
  unfold head
  refine Finset.sum_congr rfl fun a _ => ?_
  have hE : ∀ r : Fin 96, weightsV (scoresV x0 x1) (ix3 n i r)
      = weightOf (fun r j => x0 (ix3 n r j)) (fun r j => x1 (ix3 n r j)) i r := by
    intro r
    rw [weightsV_apply]
    unfold weightOf rowMax
    simp only [scoresV_apply]
  have hP : (truncf .bf16 (normV (weightsV (scoresV x0 x1))) bitsLt_bf16_f32 : FVec Ideal S64x96x96 .bf16) (ix3 n i a)
      = Ideal.div (weightOf (fun r j => x0 (ix3 n r j)) (fun r j => x1 (ix3 n r j)) i a)
          (∑ r : Fin 96, weightOf (fun r j => x0 (ix3 n r j)) (fun r j => x1 (ix3 n r j)) i r) := by
    show normV (weightsV (scoresV x0 x1)) (ix3 n i a) = _
    rw [normV_apply]
    simp only [hE]
  rw [hP, shapeCast_self]

end Cert.KernelIdeal.HeadBody

end
-- ==== Proof.Region2.lean ====
/-
  What the attention launch leaves in its output array. The grid has 64 points; point t reads blocks t of the query, key
  and value stacks (64 heads each) and writes block t of the output. Head by head the body is one head of attention, so the
  array ends, at (head, i, w), at the attention of that head's queries, keys and values: the blocks are restrictions of that
  one function, and the 64 blocks tile the 4096 heads.
-/
import proofs.«141594_j28956669509998_2_alg».proof.Proof.Gen.KernelIdeal.Frame
import proofs.«141594_j28956669509998_2_alg».proof.Proof.HeadBody
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx Cert.Attn
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

/-- Attention head by head over stacks of 4096 heads. -/
def heads (q k v : S4096x96x96.Idx → EReal) : S4096x96x96.Idx → EReal := fun idx =>
  head (fun r j => q (ix3 (⟨(idx 0).val, (idx 0).isLt⟩ : Fin 4096) r j))
    (fun r j => k (ix3 (⟨(idx 0).val, (idx 0).isLt⟩ : Fin 4096) r j))
    (fun r j => v (ix3 (⟨(idx 0).val, (idx 0).isLt⟩ : Fin 4096) r j))
    (⟨(idx 1).val, (idx 1).isLt⟩ : Fin 96) (⟨(idx 2).val, (idx 2).isLt⟩ : Fin 96)

theorem heads_apply (q k v : S4096x96x96.Idx → EReal) (N : Fin 4096) (i w : Fin 96) :
    heads q k v (ix3 N i w) = head (fun r j => q (ix3 N r j)) (fun r j => k (ix3 N r j)) (fun r j => v (ix3 N r j)) i w := rfl

/-- The index maps over the grid: the three input blocks move with the output block, along the head axis only. -/
theorem idx_facts : ∀ t : Fin cfg2.N,
    win2_0.index t (0 : Fin 3) = win2_3.index t (0 : Fin 3) ∧ win2_0.index t (1 : Fin 3) = 0 ∧ win2_0.index t (2 : Fin 3) = 0
    ∧ win2_1.index t (0 : Fin 3) = win2_3.index t (0 : Fin 3) ∧ win2_1.index t (1 : Fin 3) = 0 ∧ win2_1.index t (2 : Fin 3) = 0
    ∧ win2_2.index t (0 : Fin 3) = win2_3.index t (0 : Fin 3) ∧ win2_2.index t (1 : Fin 3) = 0 ∧ win2_2.index t (2 : Fin 3) = 0
    ∧ win2_3.index t (0 : Fin 3) ≤ 63 ∧ win2_3.index t (1 : Fin 3) = 0 ∧ win2_3.index t (2 : Fin 3) = 0 :=
  (by decide +kernel : ∀ t : Fin grid2.N, _)

/-- Every block of 64 heads is some point's output block. -/
theorem idx_onto : ∀ (q0 : Fin 64), ∃ t : Fin cfg2.N, win2_3.index t = ![q0.val, 0, 0] :=
  (by decide +kernel : ∀ (q0 : Fin 64), ∃ t : Fin grid2.N, win2_3.index t = ![q0.val, 0, 0])

/-- What point `t` writes back is block `t` of the attention of the stacks as the launch finds them. -/
theorem flushed_eq (c : Dev nD) (t : Fin cfg2.N) :
    (dat2 V c).flushed 3 t = ((cfg2.win 3).blk t).view.read (Elt Ideal) (heads (V c main_v11) (V c main_v12) (V c main_v13)) := by
  show (cfg2.win 3).cut (grid2.coords t) ((dat2 V c).after 3 t) = _
  rw [after2_3]
  unfold out2_3
  rw [View.canon_unit_zero hz3]
  simp only [View.ld_unit_zero (S := S64x96x96) hz3]
  obtain ⟨e0, e1, e2, e3, e4, e5, e6, e7, e8, e9, e10, e11⟩ := idx_facts t
  funext y
  obtain ⟨n, i, w, rfl⟩ : ∃ (n : Fin 64) (i w : Fin 96), y = ix3 n i w :=
    ⟨⟨(y 0).val, (y 0).isLt⟩, ⟨(y 1).val, (y 1).isLt⟩, ⟨(y 2).val, (y 2).isLt⟩, funext fun d => by
      match d with
      | ⟨0, _⟩ => rfl
      | ⟨1, _⟩ => rfl
      | ⟨2, _⟩ => rfl⟩
  show k2_pay1 (F := Ideal) (iblk2 V c 0 t) (iblk2 V c 1 t) (iblk2 V c 2 t) (ix3 n i w)
      = heads (V c main_v11) (V c main_v12) (V c main_v13) (((cfg2.win 3).blk t).view.emb (ix3 n i w))
  refine (HeadBody.body_apply (iblk2 V c 0 t) (iblk2 V c 1 t) (iblk2 V c 2 t) n i w).trans ?_
  have hN : win2_3.index t (0 : Fin 3) * 64 + n.val < 4096 := by have := n.isLt; omega
  have hE : ((cfg2.win 3).blk t).view.emb (ix3 n i w) = ix3 (⟨win2_3.index t (0 : Fin 3) * 64 + n.val, hN⟩ : Fin 4096) i w := funext fun d => Fin.ext (by
    match d with
    | ⟨0, _⟩ =>
      show win2_3.index t (0 : Fin 3) * 64 + 1 * n.val = win2_3.index t (0 : Fin 3) * 64 + n.val
      omega
    | ⟨1, _⟩ =>
      show win2_3.index t (1 : Fin 3) * 96 + 1 * i.val = i.val
      omega
    | ⟨2, _⟩ =>
      show win2_3.index t (2 : Fin 3) * 96 + 1 * w.val = w.val
      omega)
  rw [hE, heads_apply]
  have hq : ∀ (r j : Fin 96), iblk2 V c 0 t (ix3 n r j)
      = V c main_v11 (ix3 (⟨win2_3.index t (0 : Fin 3) * 64 + n.val, hN⟩ : Fin 4096) r j) := by
    intro r j
    show V c main_v11 (((cfg2.win 0).blk t).view.emb (ix3 n r j)) = _
    refine congrArg (V c main_v11) (funext fun d => Fin.ext ?_)
    match d with
    | ⟨0, _⟩ =>
      show win2_0.index t (0 : Fin 3) * 64 + 1 * n.val = win2_3.index t (0 : Fin 3) * 64 + n.val
      omega
    | ⟨1, _⟩ =>
      show win2_0.index t (1 : Fin 3) * 96 + 1 * r.val = r.val
      omega
    | ⟨2, _⟩ =>
      show win2_0.index t (2 : Fin 3) * 96 + 1 * j.val = j.val
      omega
  have hk : ∀ (r j : Fin 96), iblk2 V c 1 t (ix3 n r j)
      = V c main_v12 (ix3 (⟨win2_3.index t (0 : Fin 3) * 64 + n.val, hN⟩ : Fin 4096) r j) := by
    intro r j
    show V c main_v12 (((cfg2.win 1).blk t).view.emb (ix3 n r j)) = _
    refine congrArg (V c main_v12) (funext fun d => Fin.ext ?_)
    match d with
    | ⟨0, _⟩ =>
      show win2_1.index t (0 : Fin 3) * 64 + 1 * n.val = win2_3.index t (0 : Fin 3) * 64 + n.val
      omega
    | ⟨1, _⟩ =>
      show win2_1.index t (1 : Fin 3) * 96 + 1 * r.val = r.val
      omega
    | ⟨2, _⟩ =>
      show win2_1.index t (2 : Fin 3) * 96 + 1 * j.val = j.val
      omega
  have hv : ∀ (r j : Fin 96), iblk2 V c 2 t (ix3 n r j)
      = V c main_v13 (ix3 (⟨win2_3.index t (0 : Fin 3) * 64 + n.val, hN⟩ : Fin 4096) r j) := by
    intro r j
    show V c main_v13 (((cfg2.win 2).blk t).view.emb (ix3 n r j)) = _
    refine congrArg (V c main_v13) (funext fun d => Fin.ext ?_)
    match d with
    | ⟨0, _⟩ =>
      show win2_2.index t (0 : Fin 3) * 64 + 1 * n.val = win2_3.index t (0 : Fin 3) * 64 + n.val
      omega
    | ⟨1, _⟩ =>
      show win2_2.index t (1 : Fin 3) * 96 + 1 * r.val = r.val
      omega
    | ⟨2, _⟩ =>
      show win2_2.index t (2 : Fin 3) * 96 + 1 * j.val = j.val
      omega
  simp only [hq, hk, hv]

/-- An index of the array is in point `t`'s block iff each coordinate is in the block's range on its axis. -/
theorem mem_blk (t : Fin cfg2.N) (i : S4096x96x96.Idx) :
    i ∈ ((cfg2.win 3).blk t).view.set ↔ ∀ a : Fin 3, win2_3.index t a * S64x96x96.size a ≤ (i a).val
      ∧ (i a).val < win2_3.index t a * S64x96x96.size a + S64x96x96.size a := by
  show i ∈ ((View.whole main_v14).slice (win2_3.rect t)).set ↔ _
  rw [View.set_slice_whole, Rect.mem_set_unit]
  exact Iff.rfl

/-- The blocks tile the array: head N is in block N / 64. -/
theorem cover (i : S4096x96x96.Idx) : ∃ t : Fin cfg2.N, (cfg2.win 3).flush t = true ∧ i ∈ ((cfg2.win 3).blk t).view.set := by
  have hi0 : (i 0).val < 4096 := (i 0).isLt
  have hi1 : (i 1).val < 96 := (i 1).isLt
  have hi2 : (i 2).val < 96 := (i 2).isLt
  obtain ⟨t, ht⟩ := idx_onto ⟨(i 0).val / 64, by omega⟩
  have q0 : win2_3.index t (0 : Fin 3) = (i 0).val / 64 := congrFun ht 0
  have q1 : win2_3.index t (1 : Fin 3) = 0 := congrFun ht 1
  have q2 : win2_3.index t (2 : Fin 3) = 0 := congrFun ht 2
  refine ⟨t, flush2_3 t, ?_⟩
  rw [mem_blk]
  intro a
  match a with
  | ⟨0, _⟩ =>
    show win2_3.index t (0 : Fin 3) * 64 ≤ (i 0).val ∧ (i 0).val < win2_3.index t (0 : Fin 3) * 64 + 64
    omega
  | ⟨1, _⟩ =>
    show win2_3.index t (1 : Fin 3) * 96 ≤ (i 1).val ∧ (i 1).val < win2_3.index t (1 : Fin 3) * 96 + 96
    omega
  | ⟨2, _⟩ =>
    show win2_3.index t (2 : Fin 3) * 96 ≤ (i 2).val ∧ (i 2).val < win2_3.index t (2 : Fin 3) * 96 + 96
    omega

/-- THE OUTPUT ARRAY after the launch: attention head by head of the stacks as the launch finds them. -/
theorem final (c : Dev nD) : (dat2 V c).arrAt 3 cfg2.N = heads (V c main_v11) (V c main_v12) (V c main_v13) :=
  (dat2 V c).arrAt_eq_of_cover 3 (heads (V c main_v11) (V c main_v12) (V c main_v13)) (fun t _ => flushed_eq V c t) cover

end Cert.KernelIdeal.Region2

end
-- ==== Proof.KernelValue.lean ====
/-
  The kernel's result as the mathematics of Spec.lean. The result array is the attention launch's output with its head
  axis split into (batch, channel); that output is attention head by head of the three stacks; the query stack is the second
  projection's rows re-read row-major as [8, 512, 96, 96], the key and value stacks the two groups of the first projection's
  rows re-read as [8, 2, 512, 96, 96]; and the projections' rows are the channels of the flattened inputs against the
  transposed weight. The first projection computes only rows 3072 … 9215 of each batch: exactly the positions the groups 1 and
  2 of the full re-reading [8, 3, 512, 96, 96] are made of, since a group is 3072 rows of 1536 numbers. So each stack's entry is
  the same `group` entry as the reference's, and the result is `G` of the arguments.
-/
import proofs.«141594_j28956669509998_2_alg».proof.Proof.Gen.KernelIdeal.Frame
import proofs.«141594_j28956669509998_2_alg».proof.Proof.Stretch
import proofs.«141594_j28956669509998_2_alg».proof.Proof.Region0
import proofs.«141594_j28956669509998_2_alg».proof.Proof.Region1
import proofs.«141594_j28956669509998_2_alg».proof.Proof.Region2
import proofs.«141594_j28956669509998_2_alg».proof.Proof.Spec
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx Cert.Attn
open Idealize.ShloMosaic.Pipeline (Dat Cfg Window)

variable (m : (ℓ : Loc nD τ sig) → Buf (Elt Ideal) ℓ) (ρ : Dev nD → PrngReg)

/-! ## The two projections' outputs as the attention's host lines find them -/

/-- The weight reaches the second projection as the first found it: an input window's array is not written. -/
theorem weight_kept (c : Dev nD) : W2 m ρ c (Proc.devRef .tc main_v0) = W1 m ρ c (Proc.devRef .tc main_v0) := by
  have h : W2 m ρ c (Proc.devRef .tc main_v0) = (dat0 (V1 m ρ) c).arrAt 1 cfg0.N := W2_arr m ρ c 1
  rw [h, (dat0 (V1 m ρ) c).arrAt_in 1 rfl cfg0.N, A_eq0]

/-- The first projection's output: rows 3072 … 9215 of the first input, projected. -/
theorem proj0 (c : Dev nD) :
    (W3 m ρ c (Proc.devRef .tc main_v3) : S8x6144x1536.Idx → EReal) = Region0.rows (shapeCast S8x512x9216 (m ((c : Thread nD τ).loc main_arg0)) shapeCasts_S8x512x96x96_S8x512x9216) (transpose S512x1536 [1, 0] (m ((c : Thread nD τ).loc main_arg2)) transposes_S1536x512_S512x1536_1_0) := by
  have h1 : W3 m ρ c (Proc.devRef .tc main_v3) = W2 m ρ c (Proc.devRef .tc main_v3) := W3_of_ne m ρ c main_v3 (by decide)
  have h2 : W2 m ρ c (Proc.devRef .tc main_v3) = (dat0 (V1 m ρ) c).arrAt 2 cfg0.N := W2_arr m ρ c 2
  rw [h1, h2, Region0.final (V1 m ρ) c]
  show Region0.rows (W1 m ρ c (Proc.devRef .tc main_v1)) (W1 m ρ c (Proc.devRef .tc main_v0)) = _
  rw [Stretch.flatX, Stretch.weight]

/-- The second projection's output: rows 0 … 3071 of the second input, projected. -/
theorem proj1 (c : Dev nD) :
    (W3 m ρ c (Proc.devRef .tc main_v4) : S8x3072x1536.Idx → EReal) = Region1.rows (shapeCast S8x512x9216 (m ((c : Thread nD τ).loc main_arg1)) shapeCasts_S8x512x96x96_S8x512x9216) (transpose S512x1536 [1, 0] (m ((c : Thread nD τ).loc main_arg2)) transposes_S1536x512_S512x1536_1_0) := by
  have h2 : W3 m ρ c (Proc.devRef .tc main_v4) = (dat1 (V2 m ρ) c).arrAt 2 cfg1.N := W3_arr m ρ c 2
  rw [h2, Region1.final (V2 m ρ) c]
  have h3 : W2 m ρ c (Proc.devRef .tc main_v2) = W1 m ρ c (Proc.devRef .tc main_v2) := W2_of_ne m ρ c main_v2 (by decide)
  show Region1.rows (W2 m ρ c (Proc.devRef .tc main_v2)) (W2 m ρ c (Proc.devRef .tc main_v0)) = _
  rw [h3, weight_kept, Stretch.flatY, Stretch.weight]

/-! ## The projected rows at an index -/

/-- An input with its spatial axes merged, at (b, k, n): the input at (b, k, n / 96, n mod 96). -/
theorem flat_apply (A : S8x512x96x96.Idx → EReal) (b : Fin 8) (k : Fin 512) (n : Fin 9216) (h w : Fin 96)
    (hn : n.val = h.val * 96 + w.val) :
    (shapeCast S8x512x9216 A shapeCasts_S8x512x96x96_S8x512x9216 : S8x512x9216.Idx → EReal) (ix3 b k n) = A (ix4 b k h w) :=
  shapeCast_apply A shapeCasts_S8x512x96x96_S8x512x9216 (ix3 b k n) (ix4 b k h w) (by
    rw [Shape.rowMajor_val_four, Shape.rowMajor_val_three]
    show ((b.val * 512 + k.val) * 96 + h.val) * 96 + w.val = (b.val * 512 + k.val) * 9216 + n.val
    omega)

/-- The transposed weight at (k, o): the weight at (o, k). -/
theorem weightT_apply (Wt : S1536x512.Idx → EReal) (k : Fin 512) (o : Fin 1536) :
    (transpose S512x1536 [1, 0] Wt transposes_S1536x512_S512x1536_1_0 : S512x1536.Idx → EReal) (ix2 k o) = Wt (ix2 o k) :=
  transpose_apply [1, 0] Wt transposes_S1536x512_S512x1536_1_0 (ix2 k o) (ix2 o k) (fun d => match d with
    | ⟨0, _⟩ => rfl
    | ⟨1, _⟩ => rfl)

/-- The first projection's row r of batch b is position 3072 + r = h·96 + w projected. -/
theorem rows0_apply (X : S8x512x96x96.Idx → EReal) (Wt : S1536x512.Idx → EReal) (b : Fin 8) (r : Fin 6144) (o : Fin 1536)
    (h w : Fin 96) (hr : 3072 + r.val = h.val * 96 + w.val) :
    Region0.rows (shapeCast S8x512x9216 X shapeCasts_S8x512x96x96_S8x512x9216) (transpose S512x1536 [1, 0] Wt transposes_S1536x512_S512x1536_1_0)
      (ix3 b r o) = proj X Wt b h w o := by
  unfold Region0.rows proj
  refine Finset.sum_congr rfl fun k _ => ?_
  exact congrArg₂ (fun (x y : EReal) => x * y) (flat_apply X b k _ h w hr) (weightT_apply Wt k o)

/-- The second projection's row r of batch b is position r = h·96 + w projected. -/
theorem rows1_apply (Y : S8x512x96x96.Idx → EReal) (Wt : S1536x512.Idx → EReal) (b : Fin 8) (r : Fin 3072) (o : Fin 1536)
    (h w : Fin 96) (hr : 0 + r.val = h.val * 96 + w.val) :
    Region1.rows (shapeCast S8x512x9216 Y shapeCasts_S8x512x96x96_S8x512x9216) (transpose S512x1536 [1, 0] Wt transposes_S1536x512_S512x1536_1_0)
      (ix3 b r o) = proj Y Wt b h w o := by
  unfold Region1.rows proj
  refine Finset.sum_congr rfl fun k _ => ?_
  exact congrArg₂ (fun (x y : EReal) => x * y) (flat_apply Y b k _ h w hr) (weightT_apply Wt k o)

/-! ## The three stacks' entries -/

/-- The kernel's queries of batch `b`, channel `cc`: group 0 of the second input's projected positions. -/
theorem queries_entry (c : Dev nD) (b : Fin 8) (cc : Fin 512) (r j : Fin 96) (hN : b.val * 512 + cc.val < 4096) :
    (W4 m ρ c (Proc.devRef .tc main_v11) : S4096x96x96.Idx → EReal) (ix3 (⟨b.val * 512 + cc.val, hN⟩ : Fin 4096) r j)
      = group (m ((c : Thread nD τ).loc main_arg1)) (m ((c : Thread nD τ).loc main_arg2)) 0 b cc r j := by
  have hb := b.isLt; have hc := cc.isLt; have hr := r.isLt; have hj := j.isLt
  rw [Stretch.queries, proj1]
  refine (shapeCast_apply _ shapeCasts_S8x512x96x96_S4096x96x96 (ix3 (⟨b.val * 512 + cc.val, hN⟩ : Fin 4096) r j) (ix4 b cc r j) (by
    rw [Shape.rowMajor_val_four, Shape.rowMajor_val_three]
    show ((b.val * 512 + cc.val) * 96 + r.val) * 96 + j.val = ((b.val * 512 + cc.val) * 96 + r.val) * 96 + j.val
    rfl)).trans ?_
  refine (shapeCast_apply _ shapeCasts_S8x3072x1536_S8x512x96x96 (ix4 b cc r j)
    (ix3 b (⟨(cc.val * 9216 + r.val * 96 + j.val) / 1536, by omega⟩ : Fin 3072) (⟨(cc.val * 9216 + r.val * 96 + j.val) % 1536, by omega⟩ : Fin 1536)) (by
    rw [Shape.rowMajor_val_three, Shape.rowMajor_val_four]
    show (b.val * 3072 + (cc.val * 9216 + r.val * 96 + j.val) / 1536) * 1536 + (cc.val * 9216 + r.val * 96 + j.val) % 1536 = ((b.val * 512 + cc.val) * 96 + r.val) * 96 + j.val
    omega)).trans ?_
  show @Eq EReal _ _
  refine (rows1_apply (m ((c : Thread nD τ).loc main_arg1)) (m ((c : Thread nD τ).loc main_arg2)) b _ _ (⟨(0 * 4718592 + cc.val * 9216 + r.val * 96 + j.val) / 147456, by omega⟩ : Fin 96) (⟨(0 * 4718592 + cc.val * 9216 + r.val * 96 + j.val) / 1536 % 96, by omega⟩ : Fin 96) (by
    show 0 + (cc.val * 9216 + r.val * 96 + j.val) / 1536 = (0 * 4718592 + cc.val * 9216 + r.val * 96 + j.val) / 147456 * 96 + (0 * 4718592 + cc.val * 9216 + r.val * 96 + j.val) / 1536 % 96
    omega)).trans ?_
  unfold group
  refine congrArg (proj _ _ b _ _) (Fin.ext ?_)
  show (cc.val * 9216 + r.val * 96 + j.val) % 1536 = (0 * 4718592 + cc.val * 9216 + r.val * 96 + j.val) % 1536
  omega

/-- The kernel's keys of batch `b`, channel `cc`: group 1 of the first input's projected positions. -/
theorem keys_entry (c : Dev nD) (b : Fin 8) (cc : Fin 512) (r j : Fin 96) (hN : b.val * 512 + cc.val < 4096) :
    (W4 m ρ c (Proc.devRef .tc main_v12) : S4096x96x96.Idx → EReal) (ix3 (⟨b.val * 512 + cc.val, hN⟩ : Fin 4096) r j)
      = group (m ((c : Thread nD τ).loc main_arg0)) (m ((c : Thread nD τ).loc main_arg2)) 1 b cc r j := by
  have hb := b.isLt; have hc := cc.isLt; have hr := r.isLt; have hj := j.isLt
  rw [Stretch.keys, proj0]
  refine (shapeCast_apply _ shapeCasts_S8x512x96x96_S4096x96x96 (ix3 (⟨b.val * 512 + cc.val, hN⟩ : Fin 4096) r j) (ix4 b cc r j) (by
    rw [Shape.rowMajor_val_four, Shape.rowMajor_val_three]
    show ((b.val * 512 + cc.val) * 96 + r.val) * 96 + j.val = ((b.val * 512 + cc.val) * 96 + r.val) * 96 + j.val
    rfl)).trans ?_
  refine (shapeCast_apply _ shapeCasts_S8x1x512x96x96_S8x512x96x96 (ix4 b cc r j) (ix5 b (0 : Fin 1) cc r j) (by
    rw [Shape.rowMajor_val_five, Shape.rowMajor_val_four]
    show (((b.val * 1 + 0) * 512 + cc.val) * 96 + r.val) * 96 + j.val = ((b.val * 512 + cc.val) * 96 + r.val) * 96 + j.val
    omega)).trans ?_
  refine (extractStridedSlice_apply ![0, 0, 0, 0, 0] _ slices_S8x2x512x96x96_S8x1x512x96x96_0_0_0_0_0 (ix5 b (0 : Fin 1) cc r j) (ix5 b (0 : Fin 2) cc r j) (fun a => match a with
    | ⟨0, _⟩ => by show b.val = 0 + b.val; omega
    | ⟨1, _⟩ => rfl
    | ⟨2, _⟩ => by show cc.val = 0 + cc.val; omega
    | ⟨3, _⟩ => by show r.val = 0 + r.val; omega
    | ⟨4, _⟩ => by show j.val = 0 + j.val; omega)).trans ?_
  refine (shapeCast_apply _ shapeCasts_S8x6144x1536_S8x2x512x96x96 (ix5 b (0 : Fin 2) cc r j)
    (ix3 b (⟨(0 * 4718592 + cc.val * 9216 + r.val * 96 + j.val) / 1536, by omega⟩ : Fin 6144) (⟨(0 * 4718592 + cc.val * 9216 + r.val * 96 + j.val) % 1536, by omega⟩ : Fin 1536)) (by
    rw [Shape.rowMajor_val_three, Shape.rowMajor_val_five]
    show (b.val * 6144 + (0 * 4718592 + cc.val * 9216 + r.val * 96 + j.val) / 1536) * 1536 + (0 * 4718592 + cc.val * 9216 + r.val * 96 + j.val) % 1536 = (((b.val * 2 + 0) * 512 + cc.val) * 96 + r.val) * 96 + j.val
    omega)).trans ?_
  show @Eq EReal _ _
  refine (rows0_apply (m ((c : Thread nD τ).loc main_arg0)) (m ((c : Thread nD τ).loc main_arg2)) b _ _ (⟨(1 * 4718592 + cc.val * 9216 + r.val * 96 + j.val) / 147456, by omega⟩ : Fin 96) (⟨(1 * 4718592 + cc.val * 9216 + r.val * 96 + j.val) / 1536 % 96, by omega⟩ : Fin 96) (by
    show 3072 + (0 * 4718592 + cc.val * 9216 + r.val * 96 + j.val) / 1536 = (1 * 4718592 + cc.val * 9216 + r.val * 96 + j.val) / 147456 * 96 + (1 * 4718592 + cc.val * 9216 + r.val * 96 + j.val) / 1536 % 96
    omega)).trans ?_
  unfold group
  refine congrArg (proj _ _ b _ _) (Fin.ext ?_)
  show (0 * 4718592 + cc.val * 9216 + r.val * 96 + j.val) % 1536 = (1 * 4718592 + cc.val * 9216 + r.val * 96 + j.val) % 1536
  omega

/-- The kernel's values of batch `b`, channel `cc`: group 2 of the first input's projected positions. -/
theorem values_entry (c : Dev nD) (b : Fin 8) (cc : Fin 512) (r j : Fin 96) (hN : b.val * 512 + cc.val < 4096) :
    (W4 m ρ c (Proc.devRef .tc main_v13) : S4096x96x96.Idx → EReal) (ix3 (⟨b.val * 512 + cc.val, hN⟩ : Fin 4096) r j)
      = group (m ((c : Thread nD τ).loc main_arg0)) (m ((c : Thread nD τ).loc main_arg2)) 2 b cc r j := by
  have hb := b.isLt; have hc := cc.isLt; have hr := r.isLt; have hj := j.isLt
  rw [Stretch.values, proj0]
  refine (shapeCast_apply _ shapeCasts_S8x512x96x96_S4096x96x96 (ix3 (⟨b.val * 512 + cc.val, hN⟩ : Fin 4096) r j) (ix4 b cc r j) (by
    rw [Shape.rowMajor_val_four, Shape.rowMajor_val_three]
    show ((b.val * 512 + cc.val) * 96 + r.val) * 96 + j.val = ((b.val * 512 + cc.val) * 96 + r.val) * 96 + j.val
    rfl)).trans ?_
  refine (shapeCast_apply _ shapeCasts_S8x1x512x96x96_S8x512x96x96 (ix4 b cc r j) (ix5 b (0 : Fin 1) cc r j) (by
    rw [Shape.rowMajor_val_five, Shape.rowMajor_val_four]
    show (((b.val * 1 + 0) * 512 + cc.val) * 96 + r.val) * 96 + j.val = ((b.val * 512 + cc.val) * 96 + r.val) * 96 + j.val
    omega)).trans ?_
  refine (extractStridedSlice_apply ![0, 1, 0, 0, 0] _ slices_S8x2x512x96x96_S8x1x512x96x96_0_1_0_0_0 (ix5 b (0 : Fin 1) cc r j) (ix5 b (1 : Fin 2) cc r j) (fun a => match a with
    | ⟨0, _⟩ => by show b.val = 0 + b.val; omega
    | ⟨1, _⟩ => rfl
    | ⟨2, _⟩ => by show cc.val = 0 + cc.val; omega
    | ⟨3, _⟩ => by show r.val = 0 + r.val; omega
    | ⟨4, _⟩ => by show j.val = 0 + j.val; omega)).trans ?_
  refine (shapeCast_apply _ shapeCasts_S8x6144x1536_S8x2x512x96x96 (ix5 b (1 : Fin 2) cc r j)
    (ix3 b (⟨(1 * 4718592 + cc.val * 9216 + r.val * 96 + j.val) / 1536, by omega⟩ : Fin 6144) (⟨(1 * 4718592 + cc.val * 9216 + r.val * 96 + j.val) % 1536, by omega⟩ : Fin 1536)) (by
    rw [Shape.rowMajor_val_three, Shape.rowMajor_val_five]
    show (b.val * 6144 + (1 * 4718592 + cc.val * 9216 + r.val * 96 + j.val) / 1536) * 1536 + (1 * 4718592 + cc.val * 9216 + r.val * 96 + j.val) % 1536 = (((b.val * 2 + 1) * 512 + cc.val) * 96 + r.val) * 96 + j.val
    omega)).trans ?_
  show @Eq EReal _ _
  refine (rows0_apply (m ((c : Thread nD τ).loc main_arg0)) (m ((c : Thread nD τ).loc main_arg2)) b _ _ (⟨(2 * 4718592 + cc.val * 9216 + r.val * 96 + j.val) / 147456, by omega⟩ : Fin 96) (⟨(2 * 4718592 + cc.val * 9216 + r.val * 96 + j.val) / 1536 % 96, by omega⟩ : Fin 96) (by
    show 3072 + (1 * 4718592 + cc.val * 9216 + r.val * 96 + j.val) / 1536 = (2 * 4718592 + cc.val * 9216 + r.val * 96 + j.val) / 147456 * 96 + (2 * 4718592 + cc.val * 9216 + r.val * 96 + j.val) / 1536 % 96
    omega)).trans ?_
  unfold group
  refine congrArg (proj _ _ b _ _) (Fin.ext ?_)
  show (1 * 4718592 + cc.val * 9216 + r.val * 96 + j.val) % 1536 = (2 * 4718592 + cc.val * 9216 + r.val * 96 + j.val) % 1536
  omega

/-! ## The result -/

/-- THE KERNEL'S RESULT is `G` of its arguments. -/
theorem value (c : Dev nD) :
    (W6 m ρ c (Proc.devRef .tc main_v15) : S8x512x96x96.Idx → EReal)
      = G (m ((c : Thread nD τ).loc main_arg0)) (m ((c : Thread nD τ).loc main_arg1)) (m ((c : Thread nD τ).loc main_arg2)) := by
  have h5 : W5 m ρ c (Proc.devRef .tc main_v14) = (dat2 (V4 m ρ) c).arrAt 3 cfg2.N := W5_arr m ρ c 3
  rw [Stretch.result, h5, Region2.final (V4 m ρ) c]
  funext idx
  obtain ⟨b, cc, i, w, rfl⟩ : ∃ (b : Fin 8) (cc : Fin 512) (i w : Fin 96), idx = ix4 b cc i w :=
    ⟨idx 0, idx 1, idx 2, idx 3, eq_ix4 idx⟩
  have hN : b.val * 512 + cc.val < 4096 := by have := b.isLt; have := cc.isLt; omega
  refine (shapeCast_apply _ shapeCasts_S4096x96x96_S8x512x96x96 (ix4 b cc i w) (ix3 (⟨b.val * 512 + cc.val, hN⟩ : Fin 4096) i w) (by
    rw [Shape.rowMajor_val_three, Shape.rowMajor_val_four]
    show ((b.val * 512 + cc.val) * 96 + i.val) * 96 + w.val = ((b.val * 512 + cc.val) * 96 + i.val) * 96 + w.val
    rfl)).trans ?_
  rw [Region2.heads_apply, G_apply]
  have hq : (fun r j => (V4 m ρ c main_v11 : S4096x96x96.Idx → EReal) (ix3 (⟨b.val * 512 + cc.val, hN⟩ : Fin 4096) r j))
      = group (m ((c : Thread nD τ).loc main_arg1)) (m ((c : Thread nD τ).loc main_arg2)) 0 b cc := funext fun r => funext fun j => queries_entry m ρ c b cc r j hN
  have hk : (fun r j => (V4 m ρ c main_v12 : S4096x96x96.Idx → EReal) (ix3 (⟨b.val * 512 + cc.val, hN⟩ : Fin 4096) r j))
      = group (m ((c : Thread nD τ).loc main_arg0)) (m ((c : Thread nD τ).loc main_arg2)) 1 b cc := funext fun r => funext fun j => keys_entry m ρ c b cc r j hN
  have hv : (fun r j => (V4 m ρ c main_v13 : S4096x96x96.Idx → EReal) (ix3 (⟨b.val * 512 + cc.val, hN⟩ : Fin 4096) r j))
      = group (m ((c : Thread nD τ).loc main_arg0)) (m ((c : Thread nD τ).loc main_arg2)) 2 b cc := funext fun r => funext fun j => values_entry m ρ c b cc r j hN
  exact congrArg₂ (fun f g => head f g _ i w) hq hk |>.trans (congrArg (fun h => head _ _ h i w) hv)

end Cert.KernelIdeal.Whole

end
-- ==== Proof.RefValue.lean ====
/-
  The reference read as the mathematics of Spec.lean. Its queries, keys and values are groups of the row-major re-reading
  of the projected positions (`group`); from them, per batch and channel, the scaled scores, the row maximum (its second
  maximum against minus infinity changes nothing), the exponentials, the row sums and the final product are one head of
  attention (`head`). So the reference's result is `G` of its arguments.
-/
import proofs.«141594_j28956669509998_2_alg».proof.Proof.Gen.ReferenceIdeal.Read
import proofs.«141594_j28956669509998_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 : (⟨S8x512x96x96, .f32⟩ : BufTy).Contents (Elt Ideal)) (x2 : (⟨S1536x512, .f32⟩ : BufTy).Contents (Elt Ideal))

/-! ## Queries, keys and values are groups of the projected positions -/

/-- queries_eq: group 0 of the second input's projection. -/
theorem queries_eq (b : Fin 8) (c : Fin 512) (i j : Fin 96) :
    val_main_v13 (F := Ideal) x1 x2 (ix4 b c i j) = group x1 x2 0 b c i j := by
  have hb := b.isLt; have hc := c.isLt; have hi := i.isLt; have hj := j.isLt
  unfold val_main_v13
  refine (shapeCast_apply _ shapeCasts_S8x1x512x96x96_S8x512x96x96 (ix4 b c i j) (ix5 b (0 : Fin 1) c i j) (by
    rw [Shape.rowMajor_val_five, Shape.rowMajor_val_four]
    show (((b.val * 1 + 0) * 512 + c.val) * 96 + i.val) * 96 + j.val = ((b.val * 512 + c.val) * 96 + i.val) * 96 + j.val
    omega)).trans ?_
  unfold val_main_v12
  refine (extractStridedSlice_apply ![0, 0, 0, 0, 0] _ slices_S8x3x512x96x96_S8x1x512x96x96_0_0_0_0_0 (ix5 b (0 : Fin 1) c i j) (ix5 b (0 : Fin 3) c i j) (fun a => match a with
    | ⟨0, _⟩ => by show b.val = 0 + b.val; omega
    | ⟨1, _⟩ => rfl
    | ⟨2, _⟩ => by show c.val = 0 + c.val; omega
    | ⟨3, _⟩ => by show i.val = 0 + i.val; omega
    | ⟨4, _⟩ => by show j.val = 0 + j.val; omega)).trans ?_
  unfold val_main_v11
  refine (shapeCast_apply _ shapeCasts_S8x96x96x1536_S8x3x512x96x96 (ix5 b (0 : Fin 3) c i j)
    (ix4 b (⟨(0 * 4718592 + c.val * 9216 + i.val * 96 + j.val) / 147456, by omega⟩ : Fin 96) (⟨(0 * 4718592 + c.val * 9216 + i.val * 96 + j.val) / 1536 % 96, by omega⟩ : Fin 96) (⟨(0 * 4718592 + c.val * 9216 + i.val * 96 + j.val) % 1536, by omega⟩ : Fin 1536)) (by
    rw [Shape.rowMajor_val_four, Shape.rowMajor_val_five]
    show ((b.val * 96 + (0 * 4718592 + c.val * 9216 + i.val * 96 + j.val) / 147456) * 96 + (0 * 4718592 + c.val * 9216 + i.val * 96 + j.val) / 1536 % 96) * 1536 + (0 * 4718592 + c.val * 9216 + i.val * 96 + j.val) % 1536
      = (((b.val * 3 + 0) * 512 + c.val) * 96 + i.val) * 96 + j.val
    omega)).trans ?_
  rw [val_main_v10_apply]
  unfold group proj
  refine Finset.sum_congr rfl fun k _ => ?_
  rw [val_main_v9_apply]
  refine congrArg₂ (· * ·) (congrArg x1 (funext fun a => Fin.ext ?_)) (congrArg x2 (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

/-- keys_eq: group 1 of the first input's projection. -/
theorem keys_eq (b : Fin 8) (c : Fin 512) (i j : Fin 96) :
    val_main_v6 (F := Ideal) x0 x2 (ix4 b c i j) = group x0 x2 1 b c i j := by
  have hb := b.isLt; have hc := c.isLt; have hi := i.isLt; have hj := j.isLt
  unfold val_main_v6
  refine (shapeCast_apply _ shapeCasts_S8x1x512x96x96_S8x512x96x96 (ix4 b c i j) (ix5 b (0 : Fin 1) c i j) (by
    rw [Shape.rowMajor_val_five, Shape.rowMajor_val_four]
    show (((b.val * 1 + 0) * 512 + c.val) * 96 + i.val) * 96 + j.val = ((b.val * 512 + c.val) * 96 + i.val) * 96 + j.val
    omega)).trans ?_
  unfold val_main_v5
  refine (extractStridedSlice_apply ![0, 1, 0, 0, 0] _ slices_S8x3x512x96x96_S8x1x512x96x96_0_1_0_0_0 (ix5 b (0 : Fin 1) c i j) (ix5 b (1 : Fin 3) c i j) (fun a => match a with
    | ⟨0, _⟩ => by show b.val = 0 + b.val; omega
    | ⟨1, _⟩ => rfl
    | ⟨2, _⟩ => by show c.val = 0 + c.val; omega
    | ⟨3, _⟩ => by show i.val = 0 + i.val; omega
    | ⟨4, _⟩ => by show j.val = 0 + j.val; omega)).trans ?_
  unfold val_main_v2
  refine (shapeCast_apply _ shapeCasts_S8x96x96x1536_S8x3x512x96x96 (ix5 b (1 : Fin 3) c i j)
    (ix4 b (⟨(1 * 4718592 + c.val * 9216 + i.val * 96 + j.val) / 147456, by omega⟩ : Fin 96) (⟨(1 * 4718592 + c.val * 9216 + i.val * 96 + j.val) / 1536 % 96, by omega⟩ : Fin 96) (⟨(1 * 4718592 + c.val * 9216 + i.val * 96 + j.val) % 1536, by omega⟩ : Fin 1536)) (by
    rw [Shape.rowMajor_val_four, Shape.rowMajor_val_five]
    show ((b.val * 96 + (1 * 4718592 + c.val * 9216 + i.val * 96 + j.val) / 147456) * 96 + (1 * 4718592 + c.val * 9216 + i.val * 96 + j.val) / 1536 % 96) * 1536 + (1 * 4718592 + c.val * 9216 + i.val * 96 + j.val) % 1536
      = (((b.val * 3 + 1) * 512 + c.val) * 96 + i.val) * 96 + j.val
    omega)).trans ?_
  rw [val_main_v1_apply]
  unfold group proj
  refine Finset.sum_congr rfl fun k _ => ?_
  rw [val_main_v0_apply]
  refine congrArg₂ (· * ·) (congrArg x0 (funext fun a => Fin.ext ?_)) (congrArg x2 (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

/-- values_eq: group 2 of the first input's projection. -/
theorem values_eq (b : Fin 8) (c : Fin 512) (i j : Fin 96) :
    val_main_v8 (F := Ideal) x0 x2 (ix4 b c i j) = group x0 x2 2 b c i j := by
  have hb := b.isLt; have hc := c.isLt; have hi := i.isLt; have hj := j.isLt
  unfold val_main_v8
  refine (shapeCast_apply _ shapeCasts_S8x1x512x96x96_S8x512x96x96 (ix4 b c i j) (ix5 b (0 : Fin 1) c i j) (by
    rw [Shape.rowMajor_val_five, Shape.rowMajor_val_four]
    show (((b.val * 1 + 0) * 512 + c.val) * 96 + i.val) * 96 + j.val = ((b.val * 512 + c.val) * 96 + i.val) * 96 + j.val
    omega)).trans ?_
  unfold val_main_v7
  refine (extractStridedSlice_apply ![0, 2, 0, 0, 0] _ slices_S8x3x512x96x96_S8x1x512x96x96_0_2_0_0_0 (ix5 b (0 : Fin 1) c i j) (ix5 b (2 : Fin 3) c i j) (fun a => match a with
    | ⟨0, _⟩ => by show b.val = 0 + b.val; omega
    | ⟨1, _⟩ => rfl
    | ⟨2, _⟩ => by show c.val = 0 + c.val; omega
    | ⟨3, _⟩ => by show i.val = 0 + i.val; omega
    | ⟨4, _⟩ => by show j.val = 0 + j.val; omega)).trans ?_
  unfold val_main_v2
  refine (shapeCast_apply _ shapeCasts_S8x96x96x1536_S8x3x512x96x96 (ix5 b (2 : Fin 3) c i j)
    (ix4 b (⟨(2 * 4718592 + c.val * 9216 + i.val * 96 + j.val) / 147456, by omega⟩ : Fin 96) (⟨(2 * 4718592 + c.val * 9216 + i.val * 96 + j.val) / 1536 % 96, by omega⟩ : Fin 96) (⟨(2 * 4718592 + c.val * 9216 + i.val * 96 + j.val) % 1536, by omega⟩ : Fin 1536)) (by
    rw [Shape.rowMajor_val_four, Shape.rowMajor_val_five]
    show ((b.val * 96 + (2 * 4718592 + c.val * 9216 + i.val * 96 + j.val) / 147456) * 96 + (2 * 4718592 + c.val * 9216 + i.val * 96 + j.val) / 1536 % 96) * 1536 + (2 * 4718592 + c.val * 9216 + i.val * 96 + j.val) % 1536
      = (((b.val * 3 + 2) * 512 + c.val) * 96 + i.val) * 96 + j.val
    omega)).trans ?_
  rw [val_main_v1_apply]
  unfold group proj
  refine Finset.sum_congr rfl fun k _ => ?_
  rw [val_main_v0_apply]
  refine congrArg₂ (· * ·) (congrArg x0 (funext fun a => Fin.ext ?_)) (congrArg x2 (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl

/-! ## The operand indices of the two products and of the row reductions -/

theorem lidx18 (b : Fin 8) (c : Fin 512) (i a k : Fin 96) : lidx_main_v18 (ix4 b c i a) k = ix4 b c i k :=
  funext fun d => Fin.ext (by
    match d with
    | ⟨0, _⟩ => rfl
    | ⟨1, _⟩ => rfl
    | ⟨2, _⟩ => rfl
    | ⟨3, _⟩ => rfl)
theorem ridx18 (b : Fin 8) (c : Fin 512) (i a k : Fin 96) : ridx_main_v18 (ix4 b c i a) k = ix4 b c a k :=
  funext fun d => Fin.ext (by
    match d with
    | ⟨0, _⟩ => rfl
    | ⟨1, _⟩ => rfl
    | ⟨2, _⟩ => rfl
    | ⟨3, _⟩ => rfl)
theorem lidx32 (b : Fin 8) (c : Fin 512) (i w k : Fin 96) : lidx_main_v32 (ix4 b c i w) k = ix4 b c i k :=
  funext fun d => Fin.ext (by
    match d with
    | ⟨0, _⟩ => rfl
    | ⟨1, _⟩ => rfl
    | ⟨2, _⟩ => rfl
    | ⟨3, _⟩ => rfl)
theorem ridx32 (b : Fin 8) (c : Fin 512) (i w k : Fin 96) : ridx_main_v32 (ix4 b c i w) k = ix4 b c k w :=
  funext fun d => Fin.ext (by
    match d with
    | ⟨0, _⟩ => rfl
    | ⟨1, _⟩ => rfl
    | ⟨2, _⟩ => rfl
    | ⟨3, _⟩ => rfl)
theorem idx28 (b : Fin 8) (c : Fin 512) (i k : Fin 96) : idx_main_v28 (ix3 b c i) k = ix4 b c i k :=
  funext fun d => Fin.ext (by
    match d with
    | ⟨0, _⟩ => rfl
    | ⟨1, _⟩ => rfl
    | ⟨2, _⟩ => rfl
    | ⟨3, _⟩ => rfl)
theorem idx25 (b : Fin 8) (c : Fin 512) (i a : Fin 96) : idx_main_v24 (idx_main_v25 (ix4 b c i a)) = ix3 b c i :=
  funext fun d => Fin.ext (by
    match d with
    | ⟨0, _⟩ => rfl
    | ⟨1, _⟩ => rfl
    | ⟨2, _⟩ => rfl)
theorem idx30 (b : Fin 8) (c : Fin 512) (i a : Fin 96) : idx_main_v29 (idx_main_v30 (ix4 b c i a)) = ix3 b c i :=
  funext fun d => Fin.ext (by
    match d with
    | ⟨0, _⟩ => rfl
    | ⟨1, _⟩ => rfl
    | ⟨2, _⟩ => rfl)

/-- The shapes of a reduction over the last axis. -/
theorem red3 : S8x512x96x96.Reduces [3] S8x512x96 := by decide

/-- The row index (b, c, i) with the column `a` put back is (b, c, i, a). -/
theorem lift_apply (b : Fin 8) (c : Fin 512) (i : Fin 96) (a : Fin (S8x512x96x96.size 3)) :
    red3.lift (ix3 b c i) a = ix4 b c i (⟨a.val, a.isLt⟩ : Fin 96) := by
  funext d; apply Fin.ext
  fin_cases d <;> rfl

/-! ## One head -/

/-- The reference's queries, keys and values of batch `b`, channel `c`. -/
abbrev qR (b : Fin 8) (c : Fin 512) : Fin 96 → Fin 96 → EReal := fun r j => val_main_v13 (F := Ideal) x1 x2 (ix4 b c r j)
abbrev kR (b : Fin 8) (c : Fin 512) : Fin 96 → Fin 96 → EReal := fun r j => val_main_v6 (F := Ideal) x0 x2 (ix4 b c r j)
abbrev vR (b : Fin 8) (c : Fin 512) : Fin 96 → Fin 96 → EReal := fun r j => val_main_v8 (F := Ideal) x0 x2 (ix4 b c r j)

theorem score_ref (b : Fin 8) (c : Fin 512) (i a : Fin 96) :
    val_main_v20 (F := Ideal) x0 x1 x2 (ix4 b c i a) = score (qR x1 x2 b c) (kR x0 x2 b c) i a := by
  rw [val_main_v20_apply, val_main_v18_apply, val_main_v19_apply, val_main_cst_apply]
  unfold score scale
  simp only [lidx18, ridx18]
  rfl

theorem rowmax_ref (b : Fin 8) (c : Fin 512) (i : Fin 96) :
    val_main_v23 (F := Ideal) x0 x1 x2 (ix3 b c i) = rowMax (qR x1 x2 b c) (kR x0 x2 b c) i := by
  rw [val_main_v23_apply, val_main_v22_apply, val_main_cst_1_apply]
  unfold val_main_v21
  rw [Host.reduce_eq_fold_single FloatOps.maximumf _ _ reducesTo_S8x512x96x96_S8x512x96_d3 red3 h_S_]
  show max bottom (Finset.fold max bottom (val_main_v20 (F := Ideal) x0 x1 x2 ∘ red3.lift (ix3 b c i)) (Finset.univ : Finset (Fin 96))) = _
  rw [max_bottom]
  unfold rowMax
  have hf : (val_main_v20 (F := Ideal) x0 x1 x2 ∘ red3.lift (ix3 b c i)) = fun a : Fin 96 => score (qR x1 x2 b c) (kR x0 x2 b c) i a :=
    funext fun a => (congrArg (val_main_v20 (F := Ideal) x0 x1 x2) (lift_apply b c i a)).trans (score_ref x0 x1 x2 b c i _)
  exact congrArg (fun f => Finset.fold max bottom f (Finset.univ : Finset (Fin 96))) hf

theorem weight_ref (b : Fin 8) (c : Fin 512) (i a : Fin 96) :
    val_main_v27 (F := Ideal) x0 x1 x2 (ix4 b c i a) = weightOf (qR x1 x2 b c) (kR x0 x2 b c) i a := by
  rw [val_main_v27_apply, val_main_v26_apply, val_main_v25_apply, val_main_v24_apply, idx25, score_ref, rowmax_ref]
  rfl

theorem rowsum_ref (b : Fin 8) (c : Fin 512) (i : Fin 96) :
    val_main_v28 (F := Ideal) x0 x1 x2 (ix3 b c i) = ∑ a : Fin 96, weightOf (qR x1 x2 b c) (kR x0 x2 b c) i a := by
  rw [val_main_v28_apply, val_main_cst_2_apply]
  simp only [idx28, weight_ref]
  show Ideal.ofBits .f32 0x00000000#32 + _ = _
  rw [zero_word, zero_add]

/-- The reference's result at (b, c, i, w) is one head of attention of its queries, keys and values. -/
theorem head_ref (b : Fin 8) (c : Fin 512) (i w : Fin 96) :
    val_main_v32 (F := Ideal) x0 x1 x2 (ix4 b c i w) = head (qR x1 x2 b c) (kR x0 x2 b c) (vR x0 x2 b c) i w := by
  rw [val_main_v32_apply]
  unfold head
  refine Finset.sum_congr rfl fun a _ => ?_
  rw [lidx32, ridx32, val_main_v31_apply, val_main_v30_apply, val_main_v29_apply, idx30, weight_ref, rowsum_ref]
  rfl

/-- THE REFERENCE'S RESULT is `G` of its arguments. -/
theorem result_eq : val_main_v32 (F := Ideal) x0 x1 x2 = G x0 x1 x2 := by
  funext idx
  obtain ⟨b, c, i, w, rfl⟩ : ∃ (b : Fin 8) (c : Fin 512) (i w : Fin 96), idx = ix4 b c i w :=
    ⟨idx 0, idx 1, idx 2, idx 3, eq_ix4 idx⟩
  rw [head_ref, G_apply]
  have hq : qR x1 x2 b c = group x1 x2 0 b c := funext fun r => funext fun j => queries_eq x1 x2 b c r j
  have hk : kR x0 x2 b c = group x0 x2 1 b c := funext fun r => funext fun j => keys_eq x0 x2 b c r j
  have hv : vR x0 x2 b c = group x0 x2 2 b c := funext fun r => funext fun j => values_eq x0 x2 b c r j
  rw [hq, hk, hv]

end Cert.ReferenceIdeal.RefValue

end
-- ==== Proof.lean ====
/-
  The kernel computes a cross attention in three launches: it projects only the rows of the first input that the keys and
  values are made of and the rows of the second input that the queries are made of, re-reads the projected rows row-major as
  heads, and runs the attention head by head. The reference projects every position of both inputs, re-reads each batch's
  projected positions row-major as three groups, and attends the second input's group 0 against the first input's groups 1
  and 2. A group is 3072 whole rows of projected positions, so the kernel's rows are exactly the reference's groups, and on
  the extended reals — where every change of float format is the identity and a sum does not depend on its tiling — both
  results are the one function `Cert.Attn.G` of the three arguments (Proof/Spec.lean). No law used needs the inputs finite.

  The three programs terminate without a fault and leave their arguments unchanged; the idealization rewrote nothing.
-/
import proofs.«141594_j28956669509998_2_alg».proof.Defs
import proofs.«141594_j28956669509998_2_alg».proof.Proof.Gen.Kernel
import proofs.«141594_j28956669509998_2_alg».proof.Proof.Gen.Kernel.Frame
import proofs.«141594_j28956669509998_2_alg».proof.Proof.Gen.KernelIdeal
import proofs.«141594_j28956669509998_2_alg».proof.Proof.Gen.KernelIdeal.Frame
import proofs.«141594_j28956669509998_2_alg».proof.Proof.Gen.ReferenceIdeal
import proofs.«141594_j28956669509998_2_alg».proof.Proof.Gen.Pre_finite_inputs
import proofs.«141594_j28956669509998_2_alg».proof.Proof.Gen.ReferenceIdeal.Run
import proofs.«141594_j28956669509998_2_alg».proof.Proof.Gen.ReferenceIdeal.Read
import proofs.«141594_j28956669509998_2_alg».proof.Proof.Run
import proofs.«141594_j28956669509998_2_alg».proof.Proof.KernelValue
import proofs.«141594_j28956669509998_2_alg».proof.Proof.RefValue
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at `G` of the arguments, which agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Whole.value m ρ c), (h c).2⟩) (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v32_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
